-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S256x256 : Shape := ⟨2, ![256, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S8192x256 .f32) (main_arg1 : FVec F S8192x256 .f32) (main_arg2 : FVec F S256x256 .f32) (main_arg3 : FVec F S256x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S8192x256 : Shape := ⟨2, ![8192, 256]⟩
abbrev S256x256 : Shape := ⟨2, ![256, 256]⟩
abbrev S1024x256 : Shape := ⟨2, ![1024, 256]⟩
abbrev S8192x512 : Shape := ⟨2, ![8192, 512]⟩
abbrev S1024x1 : Shape := ⟨2, ![1024, 1]⟩
abbrev S1024x512 : Shape := ⟨2, ![1024, 512]⟩
abbrev S512x256 : Shape := ⟨2, ![512, 256]⟩
abbrev S512x512 : Shape := ⟨2, ![512, 512]⟩
abbrev S1024 : Shape := ⟨1, ![1024]⟩

abbrev nBuf : Space → Nat
  | .hbm => 11
  | .vmem => 21
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S256x256, .f32⟩
  | .hbm, ⟨3, _⟩ => ⟨S256x256, .f32⟩
  | .hbm, ⟨4, _⟩ => ⟨S8192x256, .bf16⟩
  | .hbm, ⟨5, _⟩ => ⟨S8192x256, .bf16⟩
  | .hbm, ⟨6, _⟩ => ⟨S8192x256, .bf16⟩
  | .hbm, ⟨7, _⟩ => ⟨S8192x256, .bf16⟩
  | .hbm, ⟨8, _⟩ => ⟨S8192x512, .bf16⟩
  | .hbm, ⟨9, _⟩ => ⟨S8192x256, .f32⟩
  | .hbm, ⟨10, _⟩ => ⟨S8192x256, .f32⟩
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S1024x256, .bf16⟩
  | .local _ .vmem, ⟨4, _⟩ => ⟨S1024x256, .bf16⟩
  | .local _ .vmem, ⟨5, _⟩ => ⟨S1024x256, .f32⟩
  | .local _ .vmem, ⟨6, _⟩ => ⟨S1024x256, .f32⟩
  | .local _ .vmem, ⟨7, _⟩ => ⟨S256x256, .f32⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S8192x256, .bf16⟩
  | .local _ .vmem, ⟨13, _⟩ => ⟨S8192x512, .bf16⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x1, .f32⟩
  | .local _ .vmem, ⟨19, _⟩ => ⟨S1024x1, .f32⟩
  | .local _ .vmem, ⟨20, _⟩ => ⟨S1024x512, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg4_1 : Ref sig .tc := ⟨.vmem, 17, rfl⟩
abbrev cc2_scratch0 : Ref sig .tc := ⟨.vmem, 18, rfl⟩
abbrev cc2_scratch1 : Ref sig .tc := ⟨.vmem, 19, rfl⟩
abbrev cc2_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

@[reducible] def k2_t1_loop : Scf.Loop 32 :=
  let c0_i32 : BitVec 32 := 0#32
  let c16_i32 : BitVec 32 := 16#32
  let v14 : BitVec 32 := Scalar.addi c0_i32 c16_i32
  let c1_i32 : BitVec 32 := 1#32
  ⟨c0_i32, v14, c1_i32⟩
def k2_mult1 (k2_t1 : Fin k2_t1_loop.trips) : BitVec 32 :=
  let c0_i32 : BitVec 32 := 0#32
  let c1_i32 : BitVec 32 := 1#32
  let arg9 : BitVec 32 := Scf.iv c0_i32 c1_i32 k2_t1
  let c512_i32 : BitVec 32 := 512#32
  let v27 : BitVec 32 := Scalar.muli arg9 c512_i32
  v27
def k2_off1 (k2_t1 : Fin k2_t1_loop.trips) : Fin 2 → Nat :=
  let c0_i32 : BitVec 32 := 0#32
  let c1_i32 : BitVec 32 := 1#32
  let arg9 : BitVec 32 := Scf.iv c0_i32 c1_i32 k2_t1
  let c512_i32 : BitVec 32 := 512#32
  let v27 : BitVec 32 := Scalar.muli arg9 c512_i32
  let v28 : BitVec 32 := v27
  let v29 : Index := Scalar.indexCast v28
  let c0_20 : Index := 0#32
  ![v29.toNat, 0]
def k2_off2 (k2_t1 : Fin k2_t1_loop.trips) : Fin 2 → Nat :=
  let c0_i32 : BitVec 32 := 0#32
  let c1_i32 : BitVec 32 := 1#32
  let arg9 : BitVec 32 := Scf.iv c0_i32 c1_i32 k2_t1
  let c512_i32 : BitVec 32 := 512#32
  let v27 : BitVec 32 := Scalar.muli arg9 c512_i32
  let v28 : BitVec 32 := v27
  let v32 : Index := Scalar.indexCast v28
  let c0_21 : Index := 0#32
  ![v32.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S8192x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1024x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  packedbf16_S1024x256_S1024x256_0_0 : (Rect.unit (s := S1024x256) ![0, 0] S1024x256.size inb_S1024x256_S1024x256_0_0).PackedRows (EltTy.packing .bf16)
  concatenates_S8192x256_S8192x256_S8192x512_d1 : Shape.Concatenates [S8192x256, S8192x256] S8192x512 1
  shapeCasts_S1024x256_S1024x256 : S1024x256.ShapeCasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  h_S512x256 : 0 < S512x256.numel
  shapeCasts_S512x256_S512x256 : S512x256.ShapeCasts S512x256
  h_S512x512 : 0 < S512x512.numel
  shapeCasts_S512x512_S512x512 : S512x512.ShapeCasts S512x512
  reduces_S1024x512_S1024 : S1024x512.Reduces [1] S1024
  shapeCasts_S1024_S1024x1 : S1024.ShapeCasts S1024x1
  broadcasts_S1024x1_S1024x512 : S1024x1.Broadcasts S1024x512
  slices_S1024x512_o0_0_S1024x256 : S1024x512.Slices ![0, 0] S1024x256
  slices_S1024x512_o0_256_S1024x256 : S1024x512.Slices ![0, 256] S1024x256
  dot_S1024x256_S256x256_S1024x256_1_1_0_0_n_n_wf : DotDims.WF S1024x256 S256x256 S1024x256 [1] [1] [0] [0] [] []
  dot_S1024x256_S512x256_S1024x512_1_1_0_0_n_n_wf : DotDims.WF S1024x256 S512x256 S1024x512 [1] [1] [0] [0] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .bf16 = 32 ∨ (Rect.block (s := S8192x256) S1024x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .bf16 = 32 ∨ (Rect.block (s := S8192x256) S1024x256.size (cc1_transform_2 i) (hinb1_2 i)).WholeWords (EltTy.packing .bf16)
  hrank2 : 0 < grid2.rank
  k2_t1_ok : k2_t1_loop.OK
  k2_mult1_dvd : ∀ k2_t1 : Fin k2_t1_loop.trips, 512 ∣ (k2_mult1 k2_t1).toNat
  k2_off1_inb : ∀ k2_t1 : Fin k2_t1_loop.trips, ∀ a, (k2_off1 k2_t1) a + S512x256.size a ≤ S8192x256.size a
  k2_off2_inb : ∀ k2_t1 : Fin k2_t1_loop.trips, ∀ a, (k2_off2 k2_t1) a + S512x512.size a ≤ S8192x512.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S8192x256.size a
  hwx2_0 : ∀ i : grid2.Coords, EltTy.bits .bf16 = 32 ∨ (Rect.block (s := S8192x256) S1024x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x256.size a ≤ S8192x256.size a
  hwx2_1 : ∀ i : grid2.Coords, EltTy.bits .bf16 = 32 ∨ (Rect.block (s := S8192x256) S8192x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8192x512.size a ≤ S8192x512.size a
  hwx2_2 : ∀ i : grid2.Coords, EltTy.bits .bf16 = 32 ∨ (Rect.block (s := S8192x512) S8192x512.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x256.size a ≤ S8192x256.size a
  hwx2_3 : ∀ i : grid2.Coords, EltTy.bits .f32 = 32 ∨ (Rect.block (s := S8192x256) S1024x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x256.size a ≤ S8192x256.size a
  hwx2_4 : ∀ i : grid2.Coords, EltTy.bits .f32 = 32 ∨ (Rect.block (s := S8192x256) S1024x256.size (cc2_transform_4 i) (hinb2_4 i)).WholeWords (EltTy.packing .f32)

variable [Facts₀]

def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S8192x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S8192x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5_0) S1024x256.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v5_1) S1024x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8192x256 : Shape := ⟨2, ![8192, 256]⟩
abbrev S256x256 : Shape := ⟨2, ![256, 256]⟩
abbrev S_ : Shape := ⟨0, ![]⟩
abbrev S256x8192 : Shape := ⟨2, ![256, 8192]⟩
abbrev S8192x8192 : Shape := ⟨2, ![8192, 8192]⟩
abbrev S8192 : Shape := ⟨1, ![8192]⟩
abbrev S8192x1 : Shape := ⟨2, ![8192, 1]⟩

abbrev nBuf : Space → Nat
  | .hbm => 32
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S256x256, .f32⟩
  | .hbm, ⟨9, _⟩ => ⟨S8192x256, .f32⟩
  | .hbm, ⟨10, _⟩ => ⟨S256x256, .f32⟩
  | .hbm, ⟨11, _⟩ => ⟨S8192x256, .f32⟩
  | .hbm, ⟨12, _⟩ => ⟨S256x8192, .f32⟩
  | .hbm, ⟨13, _⟩ => ⟨S8192x8192, .f32⟩
  | .hbm, ⟨14, _⟩ => ⟨S_, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S8192x1, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x256, .f32⟩
  | .hbm, ⟨31, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  transposes_S256x256_S256x256_1_0 : S256x256.Transposes [1, 0] S256x256
  transposes_S8192x256_S256x8192_1_0 : S8192x256.Transposes [1, 0] S256x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S_S8192x8192 : S_.BroadcastsInDim S8192x8192 (![] : Fin 0 → Fin S8192x8192.rank)
  dot_S8192x256_S256x256_S8192x256_1_0_0_1_n_n_wf : DotDims.WF S8192x256 S256x256 S8192x256 [1] [0] [0] [1] [] []
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.KernelRun.lean ====
/-
  The idealized kernel's run with its two result arrays named.

  The program is three pipelined regions with one stretch of host operations before the last. Its run ends with
  every buffer that outlives a region at the contents obtained by folding the regions' write-backs and the host
  operations over the launch memory; the frame statement keeps of this only that the four arguments are unchanged.
  Here the same run is read at the two results as well: each is what the last region's write-backs leave in its
  array after the last grid point.
-/
import proofs.«145131_j73126113182197_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the two results end at the last region's arrays after
    its last point, from the contents the earlier regions and the host operations left; the arguments are unchanged. -/
theorem run : θ_run defs (onTc (τ := τ) (main (F := F))) ⟨m, fun _ => 0, ρ⟩ (fun r => ∀ c : Dev nD,
      r.2.mem ((c.tc : Thread nD τ).loc main_v5_0) = (dat2 (V3 m ρ) c).arrAt 3 cfg2.N
      ∧ r.2.mem ((c.tc : Thread nD τ).loc main_v5_1) = (dat2 (V3 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v5_0 (by decide))).trans (W4_arr m ρ c 3),
       (h c _ (mem_uc main_v5_1 (by decide))).trans (W4_arr m ρ c 4),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.RunValue

end
-- ==== Proof.AttnBody.lean ====
/-
  The attention region's body as a recursion on values.

  At one grid point the body holds a block q of 1024 query rows and the whole key and value arrays. It keeps three
  running quantities per query row — a maximum, a normaliser and a row of 512 weighted sums — sets them to −∞, 0, 0,
  and visits the 16 tiles of 512 keys in order; tile k replaces the three by functions of the tile's keys and values
  and of the three as it found them. After the last tile the two output blocks are functions of the normaliser and the
  weighted sums. This module identifies what the run of the body leaves in the output blocks with that recursion:
  each store covers its whole buffer, so what a later load reads back is exactly the last stored value.
-/
import proofs.«145131_j73126113182197_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.AttnBody

open Cert.KernelIdeal Cert.KernelIdeal.Gen

variable {F : FTy → Type} [FloatOps F]

theorem hz : (![0, 0] : Fin 2 → Nat) = fun _ => 0 := funext fun a => by fin_cases a <;> rfl

/-- The loop visits sixteen tiles. -/
theorem trips_eq : k2_t1_loop.trips = 16 := by decide +kernel

/-- A store through the whole of a buffer, made last, is what the buffer then reads as. -/
theorem read_store_whole {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

/-- Tile `k` of the keys: rows 512·k … 512·k+511. -/
def keyTile (x1 : Vec F S8192x256 .bf16) (k : Fin k2_t1_loop.trips) : Vec F S512x256 .bf16 :=
  View.ld x1 (Rect.unit (s := S8192x256) (k2_off1 k) S512x256.size (k2_off1_inb k))

/-- Tile `k` of the values: rows 512·k … 512·k+511. -/
def valTile (x2 : Vec F S8192x512 .bf16) (k : Fin k2_t1_loop.trips) : Vec F S512x512 .bf16 :=
  View.ld x2 (Rect.unit (s := S8192x512) (k2_off2 k) S512x512.size (k2_off2_inb k))

/-- The three running quantities: maximum, normaliser, weighted sums. -/
abbrev St (F : FTy → Type) [FloatOps F] := Vec F S1024x1 .f32 × Vec F S1024x1 .f32 × Vec F S1024x512 .f32

/-- One tile's update of the three. -/
def tile (q : FVec F S1024x256 .bf16) (x1 : Vec F S8192x256 .bf16) (x2 : Vec F S8192x512 .bf16)
    (k : Fin k2_t1_loop.trips) (st : St F) : St F :=
  (k2_pay14 q (keyTile x1 k) st.1, k2_pay12 q (keyTile x1 k) st.1 st.2.1,
    k2_pay13 q (keyTile x1 k) (valTile x2 k) st.1 st.2.2)

/-- The three after the first `n` tiles. -/
def stateAt (q : FVec F S1024x256 .bf16) (x1 : Vec F S8192x256 .bf16) (x2 : Vec F S8192x512 .bf16) : ℕ → St F
  | 0 => (k2_pay2, k2_pay3, k2_pay4)
  | n + 1 => if h : n < k2_t1_loop.trips then tile q x1 x2 ⟨n, h⟩ (stateAt q x1 x2 n) else stateAt q x1 x2 n

section Run

variable (c : Dev nD) (i : grid2.Coords) (arg1 : Memref sig .tc .vmem S1024x256 .bf16) (harg1 : arg1.IsWhole) (arg2 : Memref sig .tc .vmem S8192x256 .bf16) (harg2 : arg2.IsWhole) (arg3 : Memref sig .tc .vmem S8192x512 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x512 .f32) (harg8 : arg8.IsWhole)

/-- What one trip stores, given the contents it finds. -/
theorem trip_pieces (v0 : Vec F S1024x256 .bf16) (X2 : BufTy.Contents (Elt F) arg2.view.ty) (X3 : BufTy.Contents (Elt F) arg3.view.ty)
    (k : Fin k2_t1_loop.trips) (f6 : BufTy.Contents (Elt F) arg6.view.ty) (f7 : BufTy.Contents (Elt F) arg7.view.ty)
    (f8 : BufTy.Contents (Elt F) arg8.view.ty) :
    tripL_k2_t1 (F := F) Variants.none c none i arg1 harg1 arg2 harg2 arg3 harg3 arg4 harg4 arg5 harg5 arg6 harg6 arg7 harg7 arg8 harg8 v0 X2 X3 k f6 f7 f8
      = ([⟨(Rect.unit (s := S1024x1) ![0, 0] S1024x1.size inb_S1024x1_S1024x1_0_0), k2_pay14 (k2_pay1 v0)
            (View.readAt (Elt F) arg2.view (Rect.unit (s := S8192x256) (k2_off1 k) S512x256.size (k2_off1_inb k)).toLoadRect X2)
            (View.readAt (Elt F) arg6.view (Rect.unit (s := S1024x1) ![0, 0] S1024x1.size inb_S1024x1_S1024x1_0_0).toLoadRect f6)⟩],
         [⟨(Rect.unit (s := S1024x1) ![0, 0] S1024x1.size inb_S1024x1_S1024x1_0_0), k2_pay12 (k2_pay1 v0)
            (View.readAt (Elt F) arg2.view (Rect.unit (s := S8192x256) (k2_off1 k) S512x256.size (k2_off1_inb k)).toLoadRect X2)
            (View.readAt (Elt F) arg6.view (Rect.unit (s := S1024x1) ![0, 0] S1024x1.size inb_S1024x1_S1024x1_0_0).toLoadRect f6)
            (View.readAt (Elt F) arg7.view (Rect.unit (s := S1024x1) ![0, 0] S1024x1.size inb_S1024x1_S1024x1_0_0).toLoadRect f7)⟩],
         [⟨(Rect.unit (s := S1024x512) ![0, 0] S1024x512.size inb_S1024x512_S1024x512_0_0), k2_pay13 (k2_pay1 v0)
            (View.readAt (Elt F) arg2.view (Rect.unit (s := S8192x256) (k2_off1 k) S512x256.size (k2_off1_inb k)).toLoadRect X2)
            (View.readAt (Elt F) arg3.view (Rect.unit (s := S8192x512) (k2_off2 k) S512x512.size (k2_off2_inb k)).toLoadRect X3)
            (View.readAt (Elt F) arg6.view (Rect.unit (s := S1024x1) ![0, 0] S1024x1.size inb_S1024x1_S1024x1_0_0).toLoadRect f6)
            (View.readAt (Elt F) arg8.view (Rect.unit (s := S1024x512) ![0, 0] S1024x512.size inb_S1024x512_S1024x512_0_0).toLoadRect f8)⟩]) := by
  unfold tripL_k2_t1
  unfold trip_k2_t1
  dsimp only
  sl_unfold_words
  rfl

end Run

section Tiles

variable (c : Dev nD) (i : grid2.Coords) (arg1 : Memref sig .tc .vmem S1024x256 .bf16) (harg1 : arg1.IsWhole) (arg2 : Memref sig .tc .vmem S8192x256 .bf16) (harg2 : arg2.IsWhole) (arg3 : Memref sig .tc .vmem S8192x512 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x512 .f32) (harg8 : arg8.IsWhole)
variable (v0 : Vec F S1024x256 .bf16) (x1 : Vec F S8192x256 .bf16) (x2 : Vec F S8192x512 .bf16)
variable (g6 : BufTy.Contents (Elt F) arg6.view.ty) (g7 : BufTy.Contents (Elt F) arg7.view.ty) (g8 : BufTy.Contents (Elt F) arg8.view.ty)

/-- The stores of the first `n` trips, from the three initial stores. -/
abbrev stores (n : ℕ) :=
  pb_k2_t1 (F := F) Variants.none c none i arg1 harg1 arg2 harg2 arg3 harg3 arg4 harg4 arg5 harg5 arg6 harg6 arg7 harg7 arg8 harg8 v0 (harg2.unread x1) (harg3.unread x2)
        (arg6.view.writes (Elt F) g6 [⟨(Rect.unit (s := S1024x1) ![0, 0] S1024x1.size inb_S1024x1_S1024x1_0_0), k2_pay2⟩])
        (arg7.view.writes (Elt F) g7 [⟨(Rect.unit (s := S1024x1) ![0, 0] S1024x1.size inb_S1024x1_S1024x1_0_0), k2_pay3⟩])
        (arg8.view.writes (Elt F) g8 [⟨(Rect.unit (s := S1024x512) ![0, 0] S1024x512.size inb_S1024x512_S1024x512_0_0), k2_pay4⟩]) n

/-- After `n` trips the three scratch buffers read as the recursion's three quantities. -/
theorem scratch_read : ∀ n, n ≤ k2_t1_loop.trips →
    arg6.view.read (Elt F) (arg6.view.writes (Elt F) (arg6.view.writes (Elt F) g6 [⟨(Rect.unit (s := S1024x1) ![0, 0] S1024x1.size inb_S1024x1_S1024x1_0_0), k2_pay2⟩])
        (stores c i arg1 harg1 arg2 harg2 arg3 harg3 arg4 harg4 arg5 harg5 arg6 harg6 arg7 harg7 arg8 harg8 v0 x1 x2 g6 g7 g8 n).1) = (stateAt (k2_pay1 v0) x1 x2 n).1
    ∧ arg7.view.read (Elt F) (arg7.view.writes (Elt F) (arg7.view.writes (Elt F) g7 [⟨(Rect.unit (s := S1024x1) ![0, 0] S1024x1.size inb_S1024x1_S1024x1_0_0), k2_pay3⟩])
        (stores c i arg1 harg1 arg2 harg2 arg3 harg3 arg4 harg4 arg5 harg5 arg6 harg6 arg7 harg7 arg8 harg8 v0 x1 x2 g6 g7 g8 n).2.1) = (stateAt (k2_pay1 v0) x1 x2 n).2.1
    ∧ arg8.view.read (Elt F) (arg8.view.writes (Elt F) (arg8.view.writes (Elt F) g8 [⟨(Rect.unit (s := S1024x512) ![0, 0] S1024x512.size inb_S1024x512_S1024x512_0_0), k2_pay4⟩])
        (stores c i arg1 harg1 arg2 harg2 arg3 harg3 arg4 harg4 arg5 harg5 arg6 harg6 arg7 harg7 arg8 harg8 v0 x1 x2 g6 g7 g8 n).2.2) = (stateAt (k2_pay1 v0) x1 x2 n).2.2
  | 0, _ => by
    have h0 : stores c i arg1 harg1 arg2 harg2 arg3 harg3 arg4 harg4 arg5 harg5 arg6 harg6 arg7 harg7 arg8 harg8 v0 x1 x2 g6 g7 g8 0 = ([], [], []) := rfl
    rw [h0]
    refine ⟨?_, ?_, ?_⟩
    · rw [View.writes_nil]; exact read_store_whole _ _ hz _ _ _
    · rw [View.writes_nil]; exact read_store_whole _ _ hz _ _ _
    · rw [View.writes_nil]; exact read_store_whole _ _ hz _ _ _
  | n + 1, h => by
    have hn : n < k2_t1_loop.trips := h
    obtain ⟨h6, h7, h8⟩ := scratch_read n (Nat.le_of_lt hn)
    have hs : stores c i arg1 harg1 arg2 harg2 arg3 harg3 arg4 harg4 arg5 harg5 arg6 harg6 arg7 harg7 arg8 harg8 v0 x1 x2 g6 g7 g8 (n + 1) = _ :=
      pb_k2_t1_succ (F := F) Variants.none c none i arg1 harg1 arg2 harg2 arg3 harg3 arg4 harg4 arg5 harg5 arg6 harg6 arg7 harg7 arg8 harg8 v0 (harg2.unread x1) (harg3.unread x2)
        (arg6.view.writes (Elt F) g6 [⟨(Rect.unit (s := S1024x1) ![0, 0] S1024x1.size inb_S1024x1_S1024x1_0_0), k2_pay2⟩])
        (arg7.view.writes (Elt F) g7 [⟨(Rect.unit (s := S1024x1) ![0, 0] S1024x1.size inb_S1024x1_S1024x1_0_0), k2_pay3⟩])
        (arg8.view.writes (Elt F) g8 [⟨(Rect.unit (s := S1024x512) ![0, 0] S1024x512.size inb_S1024x512_S1024x512_0_0), k2_pay4⟩]) ⟨n, hn⟩
    rw [hs, trip_pieces]
    have hst : stateAt (k2_pay1 v0) x1 x2 (n + 1) = tile (k2_pay1 v0) x1 x2 ⟨n, hn⟩ (stateAt (k2_pay1 v0) x1 x2 n) := by
      rw [stateAt, dif_pos hn]
    rw [hst]
    unfold tile keyTile valTile
    dsimp only
    simp only [List.cons_append, List.nil_append]
    refine ⟨?_, ?_, ?_⟩
    · rw [read_store_whole _ _ hz]
      simp only [View.readAt_eq_ld, harg2.read_unread, View.ld_unit_zero (S := S1024x1) hz]
      rw [h6]
    · rw [read_store_whole _ _ hz]
      simp only [View.readAt_eq_ld, harg2.read_unread, View.ld_unit_zero (S := S1024x1) hz]
      rw [h6, h7]
    · rw [read_store_whole _ _ hz]
      simp only [View.readAt_eq_ld, harg2.read_unread, harg3.read_unread, View.ld_unit_zero (S := S1024x1) hz,
        View.ld_unit_zero (S := S1024x512) hz]
      rw [h6, h8]

end Tiles

section Outputs

variable (c : Dev nD) (i : grid2.Coords) (arg1 : Memref sig .tc .vmem S1024x256 .bf16) (harg1 : arg1.IsWhole) (arg2 : Memref sig .tc .vmem S8192x256 .bf16) (harg2 : arg2.IsWhole) (arg3 : Memref sig .tc .vmem S8192x512 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x512 .f32) (harg8 : arg8.IsWhole)
variable (x0 : Vec F S1024x256 .bf16) (x1 : Vec F S8192x256 .bf16) (x2 : Vec F S8192x512 .bf16)

/-- The first output block after the body: the closing function of the normaliser and the weighted sums after all tiles. -/
theorem out3_eq : out2_A_3 c i arg1 harg1 arg2 harg2 arg3 harg3 arg4 harg4 arg5 harg5 arg6 harg6 arg7 harg7 arg8 harg8 x0 x1 x2
    = k2_pay6 (stateAt (k2_pay1 x0) x1 x2 k2_t1_loop.trips).2.1 (stateAt (k2_pay1 x0) x1 x2 k2_t1_loop.trips).2.2 := by
  unfold out2_A_3
  rw [View.read_writes_eq_canon _ _ _ (cover2_A_3 c i arg1 harg1 arg2 harg2 arg3 harg3 arg4 harg4 arg5 harg5 arg6 harg6 arg7 harg7 arg8 harg8 x0 x1 x2)]
  unfold kernelRun2_A
  dsimp only
  sl_unfold_words
  rw [View.canon_unit_zero hz]
  simp only [View.writes_append, View.readAt_eq_ld, harg1.read_unread, View.ld_unit_zero (S := S1024x1) hz,
    View.ld_unit_zero (S := S1024x512) hz, View.ld_unit_zero (S := S1024x256) hz]
  obtain ⟨-, h7, h8⟩ := scratch_read c i arg1 harg1 arg2 harg2 arg3 harg3 arg4 harg4 arg5 harg5 arg6 harg6 arg7 harg7 arg8 harg8 x0 x1 x2 arg6.view.junk arg7.view.junk arg8.view.junk
    k2_t1_loop.trips le_rfl
  exact congrArg₂ k2_pay6 h7 h8

/-- The second output block likewise. -/
theorem out4_eq : out2_A_4 c i arg1 harg1 arg2 harg2 arg3 harg3 arg4 harg4 arg5 harg5 arg6 harg6 arg7 harg7 arg8 harg8 x0 x1 x2
    = k2_pay7 (stateAt (k2_pay1 x0) x1 x2 k2_t1_loop.trips).2.1 (stateAt (k2_pay1 x0) x1 x2 k2_t1_loop.trips).2.2 := by
  unfold out2_A_4
  rw [View.read_writes_eq_canon _ _ _ (cover2_A_4 c i arg1 harg1 arg2 harg2 arg3 harg3 arg4 harg4 arg5 harg5 arg6 harg6 arg7 harg7 arg8 harg8 x0 x1 x2)]
  unfold kernelRun2_A
  dsimp only
  sl_unfold_words
  rw [View.canon_unit_zero hz]
  simp only [View.writes_append, View.readAt_eq_ld, harg1.read_unread, View.ld_unit_zero (S := S1024x1) hz,
    View.ld_unit_zero (S := S1024x512) hz, View.ld_unit_zero (S := S1024x256) hz]
  obtain ⟨-, h7, h8⟩ := scratch_read c i arg1 harg1 arg2 harg2 arg3 harg3 arg4 harg4 arg5 harg5 arg6 harg6 arg7 harg7 arg8 harg8 x0 x1 x2 arg6.view.junk arg7.view.junk arg8.view.junk
    k2_t1_loop.trips le_rfl
  exact congrArg₂ k2_pay7 h7 h8

end Outputs

end Cert.KernelIdeal.AttnBody

end
-- ==== Proof.Consts.lean ====
/-
  The float literals of this certificate's programs as the extended reals their bit patterns denote: the words of
  −∞, +∞, 0, 1, 256 and 1/16, each read off its sign, exponent and fraction.
-/
import Idealize.ShloMosaic.PureOps.Ideal

noncomputable section

namespace Cert.Consts

open Idealize.ShloMosaic

/-- The pattern of −∞, from which a maximum starts. -/
theorem ofBits_negInf : Ideal.ofBits .f32 0xFF800000#32 = (⊥ : EReal) := by
  simp [Ideal.ofBits, Ideal.ieee]

/-- The pattern of +∞, against which finiteness is tested. -/
theorem ofBits_posInf : Ideal.ofBits .f32 0x7F800000#32 = (⊤ : EReal) := by
  simp [Ideal.ofBits, Ideal.ieee]

/-- `+0.0` denotes 0. -/
theorem ofBits_zero : Ideal.ofBits .f32 0x00000000#32 = 0 := by
  simp [Ideal.ofBits, Ideal.ieee]

/-- `1.0` denotes 1. -/
theorem ofBits_one : Ideal.ofBits .f32 0x3F800000#32 = ((1 : ℝ) : EReal) := by
  simp [Ideal.ofBits, Ideal.ieee, -EReal.coe_mul]; norm_num

/-- `256.0` denotes the real 256. -/
theorem ofBits_256 : Ideal.ofBits .f32 0x43800000#32 = ((256 : ℝ) : EReal) := by
  simp [Ideal.ofBits, Ideal.ieee, -EReal.coe_mul]; norm_num

/-- `0.0625` denotes the real 1/16. -/
theorem ofBits_sixteenth : Ideal.ofBits .f32 0x3D800000#32 = ((1 / 16 : ℝ) : EReal) := by
  simp [Ideal.ofBits, Ideal.ieee, -EReal.coe_mul]; norm_num

end Cert.Consts

end
-- ==== Proof.AttnStep.lean ====
/-
  One tile of the online softmax and the closing division, read entry by entry over the extended reals.

  For a block q of 1024 query rows, a tile of 512 key rows kb and value rows vb, and the three running quantities
  (maximum m, normaliser l, weighted sums a), the tile's score of row r against key c is Σ_d q r d · kb c d; the new
  maximum is max m (max_c score), the normaliser becomes exp (m − m') · l + Σ_c exp (score c − m'), and each weighted
  sum exp (m − m') · a e + Σ_c exp (score c − m') · vb c e. The closing function multiplies a weighted sum by 1 / l
  and by the scale 1/16; its left half of columns goes to the first result and its right half to the second.
-/
import proofs.«145131_j73126113182197_2_alg».proof.Proof.Gen.KernelIdeal.Skeleton
import Idealize.ShloMosaic.Lib.Pipeline.Value
import Idealize.ShloMosaic.Lib.ValueIdx
import Idealize.ShloMosaic.PureOps.Ideal.Laws
import proofs.«145131_j73126113182197_2_alg».proof.Proof.Consts

set_option maxRecDepth 16384

noncomputable section

open Idealize.ShloMosaic Idealize.ShloMosaic.ValueIdx

namespace Cert.KernelIdeal.AttnStep

open Cert.KernelIdeal Cert.KernelIdeal.Gen

/-! ## Layout: a column of per-row numbers -/

/-- A vector of 1024 numbers recast as a column reads, in row r, the vector's entry r. -/
theorem cast_col {α : Type} (x : S1024.Idx → α) (h : S1024.ShapeCasts S1024x1) (r : Fin 1024) (z : Fin 1) :
    shapeCast S1024x1 x h (ix2 r z) = x (ix1 r) :=
  shapeCast_apply x h _ _ (by
    rw [Shape.rowMajor_val_two, Shape.rowMajor_val_one]
    show r.val = r.val * 1 + z.val
    have := z.isLt; omega)

/-- A column spread over 512 columns reads, at (r, c), the column's entry r. -/
theorem bcast_col {α : Type} (x : S1024x1.Idx → α) (h : S1024x1.Broadcasts S1024x512) (r : Fin 1024) (c : Fin 512) :
    broadcastTo S1024x512 x h (ix2 r c) = x (ix2 r (0 : Fin 1)) :=
  broadcastTo_apply x h _ _ (fun a => match a with
    | ⟨0, _⟩ => by show r.val = if (1024 : ℕ) = 1 then 0 else r.val; rw [if_neg (by decide)]
    | ⟨1, _⟩ => by show (0 : ℕ) = if (1 : ℕ) = 1 then 0 else c.val; rw [if_pos rfl])

/-- Row r of a [1024, 512] array with column k put back. -/
theorem lift_row (h : S1024x512.Reduces [1] S1024) (r : Fin 1024) (k : Fin (S1024x512.size 1)) :
    h.lift (ix1 r) k = ix2 r (⟨k.val, k.isLt⟩ : Fin 512) := by
  funext c; apply Fin.ext
  fin_cases c <;> rfl

/-! ## The two matrix products -/

theorem scores_lhs0 (i : S1024x512.Idx) (q : dot_S1024x256_S512x256_S1024x512_1_1_0_0_n_n.contr.Idx) : (dot_S1024x256_S512x256_S1024x512_1_1_0_0_n_n.lhsIdx i q 0).val = (i 0).val := by
  unfold DotDims.lhsIdx
  rw [dif_neg (show ¬(0 : Fin S1024x256.rank) ∈ dot_S1024x256_S512x256_S1024x512_1_1_0_0_n_n.lhsBatch by decide), dif_pos (show (0 : Fin S1024x256.rank) ∈ dot_S1024x256_S512x256_S1024x512_1_1_0_0_n_n.lhsNonContracting by decide)]
  rfl
theorem scores_rhs0 (i : S1024x512.Idx) (q : dot_S1024x256_S512x256_S1024x512_1_1_0_0_n_n.contr.Idx) : (dot_S1024x256_S512x256_S1024x512_1_1_0_0_n_n.rhsIdx i q 0).val = (i 1).val := by
  unfold DotDims.rhsIdx
  rw [dif_neg (show ¬(0 : Fin S512x256.rank) ∈ dot_S1024x256_S512x256_S1024x512_1_1_0_0_n_n.rhsBatch by decide), dif_pos (show (0 : Fin S512x256.rank) ∈ dot_S1024x256_S512x256_S1024x512_1_1_0_0_n_n.rhsNonContracting by decide)]
  rfl
theorem weighted_lhs0 (i : S1024x512.Idx) (q : dot_S1024x512_S512x512_S1024x512_1_0_0_1_n_n.contr.Idx) : (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem weighted_rhs1 (i : S1024x512.Idx) (q : dot_S1024x512_S512x512_S1024x512_1_0_0_1_n_n.contr.Idx) : (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- Scores: the block's row r against the tile's key c, summed over the 256 features. -/
theorem scores_apply (q : FVec Ideal S1024x256 .bf16) (kb : FVec Ideal S512x256 .bf16) (r : Fin 1024) (c : Fin 512) :
    FloatOps.matmul dot_S1024x256_S512x256_S1024x512_1_1_0_0_n_n none q kb (constant S1024x512 .f32 0x00000000#32) (ix2 r c)
      = ∑ d : Fin 256, q (ix2 r d) * kb (ix2 c d) := by
  rw [Ideal.matmul_constant_zero_apply, ← Equiv.sum_comp (contrEquiv1 dot_S1024x256_S512x256_S1024x512_1_1_0_0_n_n 256 rfl rfl).symm]
  refine Finset.sum_congr rfl fun k _ => ?_
  have hk := contrEquiv1_symm_val dot_S1024x256_S512x256_S1024x512_1_1_0_0_n_n 256 rfl rfl k
  have el : dot_S1024x256_S512x256_S1024x512_1_1_0_0_n_n.lhsIdx (ix2 r c) ((contrEquiv1 dot_S1024x256_S512x256_S1024x512_1_1_0_0_n_n 256 rfl rfl).symm k) = ix2 r k := funext fun a => Fin.ext (by
    match a with
    | ⟨0, _⟩ => exact scores_lhs0 _ _
    | ⟨1, _⟩ => exact (dot_S1024x256_S512x256_S1024x512_1_1_0_0_n_n.lhsIdx_val_of_single rfl _ _).trans hk)
  have er : dot_S1024x256_S512x256_S1024x512_1_1_0_0_n_n.rhsIdx (ix2 r c) ((contrEquiv1 dot_S1024x256_S512x256_S1024x512_1_1_0_0_n_n 256 rfl rfl).symm k) = ix2 c k := funext fun a => Fin.ext (by
    match a with
    | ⟨0, _⟩ => exact scores_rhs0 _ _
    | ⟨1, _⟩ => exact (dot_S1024x256_S512x256_S1024x512_1_1_0_0_n_n.rhsIdx_val_of_single rfl _ _).trans hk)
  rw [el, er]

/-- Weighted values: row r of the weights against column e of the tile's values, summed over the 512 keys. -/
theorem weighted_apply (p : FVec Ideal S1024x512 .bf16) (vb : FVec Ideal S512x512 .bf16) (r : Fin 1024) (e : Fin 512) :
    FloatOps.matmul dot_S1024x512_S512x512_S1024x512_1_0_0_1_n_n none p vb (constant S1024x512 .f32 0x00000000#32) (ix2 r e)
      = ∑ c : Fin 512, p (ix2 r c) * vb (ix2 c e) := by
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 r e) ((contrEquiv1 dot_S1024x512_S512x512_S1024x512_1_0_0_1_n_n 512 rfl rfl).symm k) = ix2 r k := funext fun a => Fin.ext (by
    match a with
    | ⟨0, _⟩ => exact weighted_lhs0 _ _
    | ⟨1, _⟩ => exact (dot_S1024x512_S512x512_S1024x512_1_0_0_1_n_n.lhsIdx_val_of_single rfl _ _).trans hk)
  have er : dot_S1024x512_S512x512_S1024x512_1_0_0_1_n_n.rhsIdx (ix2 r e) ((contrEquiv1 dot_S1024x512_S512x512_S1024x512_1_0_0_1_n_n 512 rfl rfl).symm k) = ix2 k e := funext fun a => Fin.ext (by
    match a with
    | ⟨0, _⟩ => exact (dot_S1024x512_S512x512_S1024x512_1_0_0_1_n_n.rhsIdx_val_of_single rfl _ _).trans hk
    | ⟨1, _⟩ => exact weighted_rhs1 _ _)
  rw [el, er]

/-! ## Constants -/

theorem negInf_eq : Ideal.ofBits .f32 0xFF800000#32 = (⊥ : EReal) := Cert.Consts.ofBits_negInf

/-! ## One tile, entry by entry -/

/-- The tile's score of row `r` against key `c`. -/
def tileScore (q : FVec Ideal S1024x256 .bf16) (kb : Vec Ideal S512x256 .bf16) (r : Fin 1024) (c : Fin 512) : EReal :=
  ∑ d : Fin 256, q (ix2 r d) * kb (ix2 c d)

/-- The maximum after the tile. -/
def newMax (q : FVec Ideal S1024x256 .bf16) (kb : Vec Ideal S512x256 .bf16) (mv : Vec Ideal S1024x1 .f32) (r : Fin 1024) : EReal :=
  max (mv (ix2 r (0 : Fin 1))) ((Finset.univ : Finset (Fin 512)).fold max (⊥ : EReal) (fun c => tileScore q kb r c))

theorem pay8_apply (q : FVec Ideal S1024x256 .bf16) (kb : Vec Ideal S512x256 .bf16) (r : Fin 1024) (c : Fin 512) :
    k2_pay8 q kb (ix2 r c) = tileScore q kb r c := by
  unfold k2_pay8
  rw [shapeCast_self]
  exact scores_apply q kb r c

theorem pay9_apply (q : FVec Ideal S1024x256 .bf16) (kb : Vec Ideal S512x256 .bf16) (mv : Vec Ideal S1024x1 .f32) (r : Fin 1024) :
    k2_pay9 q kb mv (ix2 r (0 : Fin 1)) = newMax q kb mv r := by
  unfold k2_pay9 newMax
  dsimp only
  rw [maximumf_apply, cast_col]
  refine congrArg (max (mv (ix2 r (0 : Fin 1)))) ?_
  refine (Ideal.multiReduction_maximumf_single (k2_pay8 q kb) 0xFF800000#32 reduces_S1024x512_S1024 (.inl rfl) rfl (ix1 r)).trans ?_
  have hf : (k2_pay8 q kb ∘ reduces_S1024x512_S1024.lift (ix1 r)) = fun k : Fin 512 => tileScore q kb r k := funext fun k => by
    show k2_pay8 q kb (reduces_S1024x512_S1024.lift (ix1 r) k) = _
    rw [lift_row]
    exact pay8_apply q kb r _
  rw [hf]
  show (Finset.univ : Finset (Fin 512)).fold max (Ideal.ofBits .f32 0xFF800000#32) _ = _
  rw [negInf_eq]

theorem pay10_apply (q : FVec Ideal S1024x256 .bf16) (kb : Vec Ideal S512x256 .bf16) (mv : Vec Ideal S1024x1 .f32) (r : Fin 1024) :
    k2_pay10 q kb mv (ix2 r (0 : Fin 1)) = Ideal.exp (mv (ix2 r (0 : Fin 1)) - newMax q kb mv r) := by
  unfold k2_pay10
  show Ideal.exp (mv (ix2 r (0 : Fin 1)) - k2_pay9 q kb mv (ix2 r (0 : Fin 1))) = _
  rw [pay9_apply]

theorem pay11_apply (q : FVec Ideal S1024x256 .bf16) (kb : Vec Ideal S512x256 .bf16) (mv : Vec Ideal S1024x1 .f32) (r : Fin 1024) (c : Fin 512) :
    k2_pay11 q kb mv (ix2 r c) = Ideal.exp (tileScore q kb r c - newMax q kb mv r) := by
  unfold k2_pay11
  show Ideal.exp (k2_pay8 q kb (ix2 r c) - broadcastTo S1024x512 (k2_pay9 q kb mv) broadcasts_S1024x1_S1024x512 (ix2 r c)) = _
  rw [pay8_apply, bcast_col, pay9_apply]

/-- The normaliser after the tile. -/
theorem pay12_apply (q : FVec Ideal S1024x256 .bf16) (kb : Vec Ideal S512x256 .bf16) (mv lv : Vec Ideal S1024x1 .f32) (r : Fin 1024) :
    k2_pay12 q kb mv lv (ix2 r (0 : Fin 1))
      = Ideal.exp (mv (ix2 r (0 : Fin 1)) - newMax q kb mv r) * lv (ix2 r (0 : Fin 1))
        + ∑ c : Fin 512, Ideal.exp (tileScore q kb r c - newMax q kb mv r) := by
  unfold k2_pay12
  dsimp only
  rw [shapeCast_self]
  show k2_pay10 q kb mv (ix2 r (0 : Fin 1)) * lv (ix2 r (0 : Fin 1))
      + shapeCast S1024x1 (multiReduction .add [1] S1024 (k2_pay11 q kb mv) 0x00000000#32 reduces_S1024x512_S1024 (.inl rfl) rfl)
          shapeCasts_S1024_S1024x1 (ix2 r (0 : Fin 1)) = _
  rw [pay10_apply, cast_col]
  refine congrArg (Ideal.exp (mv (ix2 r (0 : Fin 1)) - newMax q kb mv r) * lv (ix2 r (0 : Fin 1)) + ·) ?_
  refine (Ideal.multiReduction_add_single (k2_pay11 q kb mv) 0x00000000#32 reduces_S1024x512_S1024 (.inl rfl) rfl (ix1 r)).trans ?_
  refine Finset.sum_congr rfl fun k _ => ?_
  rw [lift_row]
  exact pay11_apply q kb mv r _

/-- The weighted sums after the tile. -/
theorem pay13_apply (q : FVec Ideal S1024x256 .bf16) (kb : Vec Ideal S512x256 .bf16) (vb : Vec Ideal S512x512 .bf16)
    (mv : Vec Ideal S1024x1 .f32) (av : Vec Ideal S1024x512 .f32) (r : Fin 1024) (e : Fin 512) :
    k2_pay13 q kb vb mv av (ix2 r e)
      = Ideal.exp (mv (ix2 r (0 : Fin 1)) - newMax q kb mv r) * av (ix2 r e)
        + ∑ c : Fin 512, Ideal.exp (tileScore q kb r c - newMax q kb mv r) * vb (ix2 c e) := by
  unfold k2_pay13
  rw [shapeCast_self, shapeCast_self]
  show broadcastTo S1024x512 (k2_pay10 q kb mv) broadcasts_S1024x1_S1024x512 (ix2 r e) * av (ix2 r e)
      + FloatOps.matmul dot_S1024x512_S512x512_S1024x512_1_0_0_1_n_n none (truncf .bf16 (k2_pay11 q kb mv) bitsLt_bf16_f32) vb
          (constant S1024x512 .f32 0x00000000#32) (ix2 r e) = _
  rw [bcast_col, pay10_apply]
  refine congrArg (Ideal.exp (mv (ix2 r (0 : Fin 1)) - newMax q kb mv r) * av (ix2 r e) + ·) ?_
  refine (weighted_apply _ _ r e).trans ?_
  refine Finset.sum_congr rfl fun c _ => ?_
  show k2_pay11 q kb mv (ix2 r c) * vb (ix2 c e) = _
  rw [pay11_apply]

theorem pay14_apply (q : FVec Ideal S1024x256 .bf16) (kb : Vec Ideal S512x256 .bf16) (mv : Vec Ideal S1024x1 .f32) (r : Fin 1024) :
    k2_pay14 q kb mv (ix2 r (0 : Fin 1)) = newMax q kb mv r := by
  unfold k2_pay14
  rw [shapeCast_self]
  exact pay9_apply q kb mv r

/-! ## The three initial values -/

theorem pay2_apply (i : S1024x1.Idx) : k2_pay2 (F := Ideal) i = (⊥ : EReal) := by
  unfold k2_pay2
  rw [shapeCast_self]
  exact negInf_eq

theorem pay3_apply (i : S1024x1.Idx) : k2_pay3 (F := Ideal) i = (0 : EReal) := by
  unfold k2_pay3
  rw [shapeCast_self]
  exact Cert.Consts.ofBits_zero

theorem pay4_apply (i : S1024x512.Idx) : k2_pay4 (F := Ideal) i = (0 : EReal) := by
  unfold k2_pay4
  rw [shapeCast_self]
  exact Cert.Consts.ofBits_zero

/-! ## The closing function -/

theorem pay5_apply (lv : Vec Ideal S1024x1 .f32) (av : Vec Ideal S1024x512 .f32) (r : Fin 1024) (e : Fin 512) :
    k2_pay5 lv av (ix2 r e)
      = av (ix2 r e) * Ideal.div (Ideal.ofBits .f32 0x3F800000#32) (lv (ix2 r (0 : Fin 1))) * Ideal.ofBits .f32 0x3D800000#32 := by
  unfold k2_pay5
  show av (ix2 r e) * broadcastTo S1024x512 (divf (broadcast S1024x1 (Ideal.ofBits .f32 0x3F800000#32)) lv) broadcasts_S1024x1_S1024x512 (ix2 r e)
      * Ideal.ofBits .f32 0x3D800000#32 = _
  rw [bcast_col]
  rfl

/-- The first result's block: the left 256 columns. -/
theorem pay6_apply (lv : Vec Ideal S1024x1 .f32) (av : Vec Ideal S1024x512 .f32) (r : Fin 1024) (e : Fin 256) :
    k2_pay6 lv av (ix2 r e) = k2_pay5 lv av (ix2 r (⟨e.val, by have := e.isLt; omega⟩ : Fin 512)) := by
  unfold k2_pay6
  exact extractStridedSlice_apply _ _ _ _ _ (fun a => match a with
    | ⟨0, _⟩ => by show r.val = 0 + r.val; omega
    | ⟨1, _⟩ => by show e.val = 0 + e.val; omega)

/-- The second result's block: the right 256 columns. -/
theorem pay7_apply (lv : Vec Ideal S1024x1 .f32) (av : Vec Ideal S1024x512 .f32) (r : Fin 1024) (e : Fin 256) :
    k2_pay7 lv av (ix2 r e) = k2_pay5 lv av (ix2 r (⟨256 + e.val, by have := e.isLt; omega⟩ : Fin 512)) := by
  unfold k2_pay7
  exact extractStridedSlice_apply _ _ _ _ _ (fun a => match a with
    | ⟨0, _⟩ => by show r.val = 0 + r.val; omega
    | ⟨1, _⟩ => by show 256 + e.val = 256 + e.val; rfl)

end Cert.KernelIdeal.AttnStep

end
-- ==== Proof.LibOnlineSoftmax.lean ====
/-
  The online softmax, free of any program.

  A row of scores arrives in tiles S 0, S 1, …, each a finite family of reals, with values V j c d beside them. The
  running state is a maximum m, a normaliser l and weighted sums a d. One tile updates
      m' = max m (max of the tile),  l' = exp (m − m') · l + Σ_c exp (s c − m'),
      a' d = exp (m − m') · a d + Σ_c exp (s c − m') · v c d,
  starting from m = −∞, l = 0, a = 0, where exp (−∞) = 0 makes the first rescaling vanish. After n ≥ 1 tiles the state
  is, for the real number M = m,  l = Σ_{j<n} Σ_c exp (S j c − M)  and  a d = Σ_{j<n} Σ_c exp (S j c − M) · V j c d,
  because exp (M − M') · exp (x − M) = exp (x − M'). The quotient a d / l does not depend on M.
-/
import Idealize.ShloMosaic.PureOps.Ideal

noncomputable section

namespace Cert.OnlineSoftmax

open Idealize.ShloMosaic Finset

variable {ι δ κ : Type*} [Fintype ι] [Fintype κ]

/-- The normaliser over the first `n` tiles at shift `M`. -/
def Z (S : ℕ → ι → ℝ) (n : ℕ) (M : ℝ) : ℝ := ∑ j ∈ range n, ∑ c, Real.exp (S j c - M)

/-- The weighted sum over the first `n` tiles at shift `M`. -/
def W (S V : ℕ → ι → ℝ) (n : ℕ) (M : ℝ) : ℝ := ∑ j ∈ range n, ∑ c, Real.exp (S j c - M) * V j c

/-- The state of a row after `n` tiles: the maximum is a real number `M`, and the normaliser and the weighted sums
    are the partial sums at shift `M`. -/
def Inv (S : ℕ → ι → ℝ) (V : ℕ → ι → δ → ℝ) (n : ℕ) (m l : EReal) (a : δ → EReal) : Prop :=
  ∃ M : ℝ, m = (M : EReal) ∧ l = ((Z S n M : ℝ) : EReal) ∧ ∀ d, a d = ((W S (fun j c => V j c d) n M : ℝ) : EReal)

/-- The inclusion of the reals in the extended reals commutes with finite sums. -/
private theorem coe_sum {α : Type*} (t : Finset α) (f : α → ℝ) :
    ((∑ i ∈ t, f i : ℝ) : EReal) = ∑ i ∈ t, ((f i : ℝ) : EReal) := by
  classical
  induction t using Finset.induction_on with
  | empty => simp
  | insert a t ha ih => rw [sum_insert ha, sum_insert ha, EReal.coe_add, ih]

/-- The inclusion of the reals in the extended reals commutes with the maximum of two numbers. -/
private theorem coe_max (a b : ℝ) : ((max a b : ℝ) : EReal) = max (a : EReal) (b : EReal) :=
  EReal.coe_strictMono.monotone.map_max

/-- A sum of exponentials of real scores less a real shift is the real sum. -/
private theorem sum_exp_coe {α : Type*} (t : Finset α) (x : α → ℝ) (M : ℝ) :
    ∑ c ∈ t, Ideal.exp (((x c : ℝ) : EReal) - (M : EReal)) = ((∑ c ∈ t, Real.exp (x c - M) : ℝ) : EReal) := by
  rw [coe_sum]
  refine sum_congr rfl fun c _ => ?_
  rw [← EReal.coe_sub, Ideal.exp_coe]

/-- The same with a real weight beside each exponential. -/
private theorem sum_exp_mul_coe {α : Type*} (t : Finset α) (x y : α → ℝ) (M : ℝ) :
    ∑ c ∈ t, Ideal.exp (((x c : ℝ) : EReal) - (M : EReal)) * ((y c : ℝ) : EReal)
      = ((∑ c ∈ t, Real.exp (x c - M) * y c : ℝ) : EReal) := by
  rw [coe_sum]
  refine sum_congr rfl fun c _ => ?_
  rw [← EReal.coe_sub, Ideal.exp_coe, EReal.coe_mul]

/-- Shifting every score by `M` multiplies a sum of exponentials by `exp (−M)`. -/
private theorem shift_sum {α : Type*} (t : Finset α) (x : α → ℝ) (M : ℝ) :
    ∑ i ∈ t, Real.exp (x i - M) = Real.exp (-M) * ∑ i ∈ t, Real.exp (x i) := by
  rw [mul_sum]
  refine sum_congr rfl fun i _ => ?_
  rw [← Real.exp_add]; congr 1; ring

/-- The same for a weighted sum. -/
private theorem shift_wsum {α : Type*} (t : Finset α) (x y : α → ℝ) (M : ℝ) :
    ∑ i ∈ t, Real.exp (x i - M) * y i = Real.exp (-M) * ∑ i ∈ t, Real.exp (x i) * y i := by
  rw [mul_sum]
  refine sum_congr rfl fun i _ => ?_
  rw [← mul_assoc, ← Real.exp_add]; congr 2; ring

/-- Moving the shift from `M` to `M'` multiplies the normaliser by `exp (M − M')`. -/
private theorem Z_shift (S : ℕ → ι → ℝ) (n : ℕ) (M M' : ℝ) : Real.exp (M - M') * Z S n M = Z S n M' := by
  unfold Z
  rw [mul_sum]
  refine sum_congr rfl fun j _ => ?_
  rw [mul_sum]
  refine sum_congr rfl fun c _ => ?_
  rw [← Real.exp_add]; congr 1; ring

/-- And the weighted sum likewise. -/
private theorem W_shift (S V : ℕ → ι → ℝ) (n : ℕ) (M M' : ℝ) : Real.exp (M - M') * W S V n M = W S V n M' := by
  unfold W
  rw [mul_sum]
  refine sum_congr rfl fun j _ => ?_
  rw [mul_sum]
  refine sum_congr rfl fun c _ => ?_
  rw [← mul_assoc, ← Real.exp_add]; congr 2; ring

/-- The normaliser at shift `M` is `exp (−M)` times the unshifted one. -/
private theorem Z_eq (S : ℕ → ι → ℝ) (n : ℕ) (M : ℝ) :
    Z S n M = Real.exp (-M) * ∑ j ∈ range n, ∑ c, Real.exp (S j c) := by
  unfold Z
  simp only [shift_sum, ← mul_sum]

/-- The weighted sum at shift `M` is `exp (−M)` times the unshifted one. -/
private theorem W_eq (S V : ℕ → ι → ℝ) (n : ℕ) (M : ℝ) :
    W S V n M = Real.exp (-M) * ∑ j ∈ range n, ∑ c, Real.exp (S j c) * V j c := by
  unfold W
  simp only [shift_wsum, ← mul_sum]

/-- A maximum, taken from −∞, of finitely many (at least one) real numbers is a real number. -/
theorem fold_max_coe [Nonempty κ] (s : κ → ℝ) :
    ∃ M : ℝ, (univ : Finset κ).fold max (⊥ : EReal) (fun k => ((s k : ℝ) : EReal)) = (M : EReal) := by
  classical
  have key : ∀ t : Finset κ, t.Nonempty →
      ∃ M : ℝ, t.fold max (⊥ : EReal) (fun k => ((s k : ℝ) : EReal)) = (M : EReal) := by
    intro t
    induction t using Finset.induction_on with
    | empty => intro h; exact absurd h (by simp)
    | insert a t ha ih =>
      intro _
      rw [fold_insert ha]
      rcases t.eq_empty_or_nonempty with rfl | hne
      · exact ⟨s a, by simp⟩
      · obtain ⟨M, hM⟩ := ih hne
        exact ⟨max (s a) M, by rw [hM, coe_max]⟩
  exact key univ univ_nonempty

/-- The first tile, from the state (−∞, 0, 0). -/
theorem inv_first [Nonempty ι] (S : ℕ → ι → ℝ) (V : ℕ → ι → δ → ℝ) (s : ι → EReal) (hs : ∀ c, s c = ((S 0 c : ℝ) : EReal))
    (v : ι → δ → EReal) (hv : ∀ c d, v c d = ((V 0 c d : ℝ) : EReal)) :
    Inv S V 1 (max (⊥ : EReal) ((univ : Finset ι).fold max (⊥ : EReal) s))
      (Ideal.exp ((⊥ : EReal) - max (⊥ : EReal) ((univ : Finset ι).fold max (⊥ : EReal) s)) * 0
        + ∑ c, Ideal.exp (s c - max (⊥ : EReal) ((univ : Finset ι).fold max (⊥ : EReal) s)))
      (fun d => Ideal.exp ((⊥ : EReal) - max (⊥ : EReal) ((univ : Finset ι).fold max (⊥ : EReal) s)) * 0
        + ∑ c, Ideal.exp (s c - max (⊥ : EReal) ((univ : Finset ι).fold max (⊥ : EReal) s)) * v c d) := by
  obtain ⟨T, hT⟩ := fold_max_coe (S 0)
  have hfold : (univ : Finset ι).fold max (⊥ : EReal) s = (T : EReal) := by rw [funext hs]; exact hT
  rw [hfold, max_bot_left]
  unfold Inv
  refine ⟨T, rfl, ?_, fun d => ?_⟩
  · rw [mul_zero, zero_add]
    simp only [hs]
    rw [sum_exp_coe]
    simp only [Z, sum_range_one]
  · beta_reduce
    rw [mul_zero, zero_add]
    simp only [hs, hv]
    rw [sum_exp_mul_coe]
    simp only [W, sum_range_one]

/-- A later tile. -/
theorem inv_step [Nonempty ι] (S : ℕ → ι → ℝ) (V : ℕ → ι → δ → ℝ) {n : ℕ} (hn : 0 < n) {m l : EReal} {a : δ → EReal}
    (h : Inv S V n m l a) (s : ι → EReal) (hs : ∀ c, s c = ((S n c : ℝ) : EReal))
    (v : ι → δ → EReal) (hv : ∀ c d, v c d = ((V n c d : ℝ) : EReal)) :
    Inv S V (n + 1) (max m ((univ : Finset ι).fold max (⊥ : EReal) s))
      (Ideal.exp (m - max m ((univ : Finset ι).fold max (⊥ : EReal) s)) * l
        + ∑ c, Ideal.exp (s c - max m ((univ : Finset ι).fold max (⊥ : EReal) s)))
      (fun d => Ideal.exp (m - max m ((univ : Finset ι).fold max (⊥ : EReal) s)) * a d
        + ∑ c, Ideal.exp (s c - max m ((univ : Finset ι).fold max (⊥ : EReal) s)) * v c d) := by
  obtain ⟨M, rfl, rfl, ha⟩ := h
  obtain ⟨T, hT⟩ := fold_max_coe (S n)
  have hfold : (univ : Finset ι).fold max (⊥ : EReal) s = (T : EReal) := by rw [funext hs]; exact hT
  rw [hfold, ← coe_max]
  unfold Inv
  refine ⟨max M T, rfl, ?_, fun d => ?_⟩
  · simp only [hs]
    rw [← EReal.coe_sub, Ideal.exp_coe, ← EReal.coe_mul, sum_exp_coe, ← EReal.coe_add, Z_shift]
    simp only [Z, sum_range_succ]
  · beta_reduce
    rw [ha d]
    simp only [hs, hv]
    rw [← EReal.coe_sub, Ideal.exp_coe, ← EReal.coe_mul, sum_exp_mul_coe, ← EReal.coe_add, W_shift]
    simp only [W, sum_range_succ]

/-- The final division: the shift cancels. -/
theorem inv_final [Nonempty ι] (S : ℕ → ι → ℝ) (V : ℕ → ι → δ → ℝ) {n : ℕ} (hn : 0 < n) {m l : EReal} {a : δ → EReal}
    (h : Inv S V n m l a) (d : δ) :
    Ideal.div (a d) l
      = (((∑ j ∈ range n, ∑ c, Real.exp (S j c) * V j c d) / (∑ j ∈ range n, ∑ c, Real.exp (S j c)) : ℝ) : EReal) := by
  obtain ⟨M, rfl, rfl, ha⟩ := h
  have hZpos : 0 < Z S n M := by
    unfold Z
    refine sum_pos (fun j _ => sum_pos (fun c _ => Real.exp_pos _) univ_nonempty) ?_
    exact ⟨0, mem_range.mpr hn⟩
  rw [ha d, Ideal.div_coe hZpos.ne', ← EReal.coe_mul, W_eq, Z_eq, mul_one_div,
    mul_div_mul_left _ _ (Real.exp_ne_zero _)]

/-- A family over the 2048 columns continued by zero to all natural numbers. -/
private def ext0 (f : Fin 2048 → ℝ) (i : ℕ) : ℝ := if h : i < 2048 then f ⟨i, h⟩ else 0

/-- Four tiles of 512 make up the 2048 columns. -/
theorem sum_tiles (f : Fin 2048 → ℝ) :
    ∑ j ∈ range 4, ∑ c : Fin 512, f ⟨(512 * j + c.val) % 2048, Nat.mod_lt _ (by norm_num)⟩ = ∑ k : Fin 2048, f k := by
  have hR : ∑ k : Fin 2048, f k = ∑ i ∈ range 2048, ext0 f i := by
    rw [← Fin.sum_univ_eq_sum_range]
    refine sum_congr rfl fun k _ => ?_
    simp only [ext0, dif_pos k.isLt, Fin.eta]
  have hL : ∀ j ∈ range 4, ∑ c : Fin 512, f ⟨(512 * j + c.val) % 2048, Nat.mod_lt _ (by norm_num)⟩
      = ∑ c ∈ range 512, ext0 f (512 * j + c) := by
    intro j hj
    rw [← Fin.sum_univ_eq_sum_range (fun c => ext0 f (512 * j + c))]
    refine sum_congr rfl fun c _ => ?_
    have hj' : j < 4 := mem_range.mp hj
    have hlt : 512 * j + c.val < 2048 := by have := c.isLt; omega
    simp only [ext0, dif_pos hlt, Nat.mod_eq_of_lt hlt]
  rw [hR, sum_congr rfl hL, show (2048 : ℕ) = 512 + 512 + 512 + 512 from rfl, sum_range_add, sum_range_add,
    sum_range_add]
  simp [sum_range_succ]

/-- The softmax taken all at once, with any real shift `M` subtracted before exponentiating: each weight divided by
    the normaliser (which a sum from 0 starts), then the weighted sum. -/
theorem softmax_shift [Nonempty κ] (s v : κ → ℝ) (M : ℝ) :
    ∑ k, Ideal.div (Ideal.exp (((s k : ℝ) : EReal) - (M : EReal))) (0 + ∑ k', Ideal.exp (((s k' : ℝ) : EReal) - (M : EReal)))
        * ((v k : ℝ) : EReal)
      = (((∑ k, Real.exp (s k) * v k) / (∑ k, Real.exp (s k)) : ℝ) : EReal) := by
  have hpos : 0 < ∑ k', Real.exp (s k' - M) := sum_pos (fun _ _ => Real.exp_pos _) univ_nonempty
  have hterm : ∀ k, Ideal.div (Ideal.exp (((s k : ℝ) : EReal) - (M : EReal)))
        (0 + ∑ k', Ideal.exp (((s k' : ℝ) : EReal) - (M : EReal))) * ((v k : ℝ) : EReal)
      = ((Real.exp (s k - M) * v k * (1 / ∑ k', Real.exp (s k' - M)) : ℝ) : EReal) := by
    intro k
    rw [zero_add, sum_exp_coe, Ideal.div_coe hpos.ne', ← EReal.coe_sub, Ideal.exp_coe, ← EReal.coe_mul, ← EReal.coe_mul,
      mul_right_comm]
  simp only [hterm]
  rw [← coe_sum, ← sum_mul, shift_wsum, shift_sum, mul_one_div, mul_div_mul_left _ _ (Real.exp_ne_zero _)]

end Cert.OnlineSoftmax

end
-- ==== Proof.LibTileSums.lean ====
/-
  Sums over tiles, and the online softmax closed by a reciprocal.

  Three facts that do not depend on any program or on any particular extent:
  the inclusion of the reals in the extended reals commutes with finite sums; n runs of m consecutive natural numbers
  are the first n·m numbers, so a sum taken tile by tile is the sum over everything; and an online-softmax state that
  satisfies the invariant after at least one tile, closed as  (weighted sum) · (1 / normaliser) · c  for a real scale c,
  is the quotient of the weighted and unweighted sums of exponentials over the tiles seen, times c — the closing a
  kernel uses when it multiplies by a reciprocal instead of dividing.
-/
import proofs.«145131_j73126113182197_2_alg».proof.Proof.LibOnlineSoftmax

noncomputable section

namespace Cert.TileSums

open Idealize.ShloMosaic Finset Cert.OnlineSoftmax

/-- The inclusion of the reals in the extended reals commutes with finite sums. -/
theorem coe_sum {α : Type*} (t : Finset α) (f : α → ℝ) :
    ((∑ i ∈ t, f i : ℝ) : EReal) = ∑ i ∈ t, ((f i : ℝ) : EReal) := by
  classical
  induction t using Finset.induction_on with
  | empty => simp
  | insert a t ha ih => rw [sum_insert ha, sum_insert ha, EReal.coe_add, ih]

/-- `n` runs of `m` consecutive numbers are the first `n · m` numbers. -/
theorem sum_runs (g : ℕ → ℝ) (m : ℕ) : ∀ n, ∑ j ∈ range n, ∑ c ∈ range m, g (m * j + c) = ∑ i ∈ range (n * m), g i
  | 0 => by simp
  | n + 1 => by
    rw [sum_range_succ, sum_runs g m n, Nat.succ_mul, sum_range_add]
    refine congrArg (_ + ·) (sum_congr rfl fun c _ => ?_)
    rw [Nat.mul_comm]

/-- After at least one tile, the closing `(weighted sum) · (1 / normaliser) · c` is the quotient of the sums over the
    tiles seen, times `c`. -/
theorem online_closed_scaled {ι δ : Type*} [Fintype ι] [Nonempty ι] (S : ℕ → ι → ℝ) (V : ℕ → ι → δ → ℝ) {n : ℕ} (hn : 0 < n)
    {m l : EReal} {a : δ → EReal} (h : Inv S V n m l a) (d : δ) (c : ℝ) :
    a d * Ideal.div ((1 : ℝ) : EReal) l * ((c : ℝ) : EReal)
      = (((∑ j ∈ range n, ∑ k, Real.exp (S j k) * V j k d) / (∑ j ∈ range n, ∑ k, Real.exp (S j k)) * c : ℝ) : EReal) := by
  have hf := inv_final S V hn h d
  obtain ⟨M, rfl, rfl, ha⟩ := h
  have hZpos : 0 < Z S n M := by
    unfold Z
    refine sum_pos (fun j _ => sum_pos (fun k _ => Real.exp_pos _) univ_nonempty) ?_
    exact ⟨0, mem_range.mpr hn⟩
  rw [Ideal.div_coe hZpos.ne', EReal.coe_one, one_mul, ← Ideal.div_coe hZpos.ne', hf, ← EReal.coe_mul]

end Cert.TileSums

end
-- ==== Proof.Spec.lean ====
/-
  Scaled softmax attention with fused projections, free of any program.

  Four arrays: two row families `img`, `text` (8192 rows of 256 numbers) and two square matrices `wq`, `wk`.
  Queries and keys are linear images of the rows, q r = wq · img r and k j = wk · text j; the score of row r against
  row j is their inner product. Row r of the result is the softmax of its scores (the exponentials of the scores
  less their maximum, divided by their sum), times a scale, applied as weights to a family of values v j.
  This module only names these expressions over the extended reals, in the order in which a straight-line
  evaluation forms them; nothing is proved here.
-/
import Idealize.ShloMosaic.PureOps.Ideal
import Idealize.ShloMosaic.Lib.ValueIdx

noncomputable section

namespace Cert.Attn

open Idealize.ShloMosaic Idealize.ShloMosaic.ValueIdx Finset

/-- An array of extended reals with `a` rows and `b` columns. -/
abbrev Arr (a b : Nat) := (⟨2, ![a, b]⟩ : Shape).Idx → EReal

/-- A square matrix applied to every row: `(x · wᵀ) r d = Σ_e x r e · w d e`. -/
def proj (x : Arr 8192 256) (w : Arr 256 256) (r : Fin 8192) (d : Fin 256) : EReal :=
  ∑ e : Fin 256, x (ix2 r e) * w (ix2 d e)

/-- The inner product of query row `r` and key row `j`. -/
def score (q kk : Fin 8192 → Fin 256 → EReal) (r j : Fin 8192) : EReal :=
  ∑ d : Fin 256, q r d * kk j d

/-- The value −∞ a maximum starts from. -/
def negInf : EReal := Ideal.ofBits .f32 0xFF800000#32

/-- The value 0 a sum starts from. -/
def zero : EReal := Ideal.ofBits .f32 0x00000000#32

/-- The scale as a quotient: one over the square root of 256. -/
def scaleQuot : EReal := Ideal.div (Ideal.ofBits .f32 0x3F800000#32) (Ideal.sqrt (Ideal.ofBits .f32 0x43800000#32))

/-- The scale as a literal: 1/16. -/
def scaleLit : EReal := Ideal.ofBits .f32 0x3D800000#32

/-- The maximum of a row of scores, taken from −∞ and then once more against −∞. -/
def rowMax (s : Fin 8192 → EReal) : EReal :=
  max negInf ((univ : Finset (Fin 8192)).fold max negInf s)

/-- Softmax attention evaluated all at once for one row with scores `s` and one column of values `v`:
    every weight `exp (s j − max) / (0 + Σ exp (s j' − max))` is scaled and multiplied by its value, then summed. -/
def attnAllAtOnce (s v : Fin 8192 → EReal) : EReal :=
  ∑ j : Fin 8192,
    (Ideal.div (Ideal.exp (s j - rowMax s)) (zero + ∑ j' : Fin 8192, Ideal.exp (s j' - rowMax s)) * scaleQuot) * v j

/-- The scores of this program's row `r`: queries from `img` by `wq`, keys from `text` by `wk`. -/
def scores (img text : Arr 8192 256) (wq wk : Arr 256 256) (r : Fin 8192) : Fin 8192 → EReal :=
  score (proj img wq) (proj text wk) r

end Cert.Attn

end
-- ==== Proof.AttnAlgebra.lean ====
/-
  The two ways of computing scaled softmax attention give one real number.

  For real scores s and real values v over 8192 keys let
      A s v = (Σ_k exp (s k) · v k) / (Σ_k exp (s k)) · (1/16).
  The all-at-once form subtracts the maximum, exponentiates, divides each weight by the sum (started from 0), scales
  by 1 / sqrt 256 and sums against the values: it is A s v because the shift by the maximum cancels in the quotient and
  sqrt 256 = 16. The tile-by-tile form keeps a running maximum, normaliser and weighted sum over 16 tiles of 512 keys and
  closes with  (weighted sum) · (1 / normaliser) · (1/16): by the online-softmax invariant it is the same quotient taken
  over tiles, and 16 tiles of 512 consecutive keys are the 8192 keys.
-/
import proofs.«145131_j73126113182197_2_alg».proof.Proof.LibTileSums
import proofs.«145131_j73126113182197_2_alg».proof.Proof.Spec
import proofs.«145131_j73126113182197_2_alg».proof.Proof.Consts

noncomputable section

namespace Cert.Attn.Algebra

open Idealize.ShloMosaic Finset Cert.OnlineSoftmax

/-- The common closed form. -/
def attnReal (s v : Fin 8192 → ℝ) : ℝ := (∑ k, Real.exp (s k) * v k) / (∑ k, Real.exp (s k)) * (1 / 16)

export Cert.TileSums (coe_sum sum_runs)

/-! ## Tiles -/

/-- A family over the 8192 keys continued by zero. -/
private def ext0 (f : Fin 8192 → ℝ) (i : ℕ) : ℝ := if h : i < 8192 then f ⟨i, h⟩ else 0

/-- Sixteen tiles of 512 keys are the 8192 keys. -/
theorem sum_tiles16 (f : Fin 8192 → ℝ) :
    ∑ j ∈ range 16, ∑ c : Fin 512, f ⟨(512 * j + c.val) % 8192, Nat.mod_lt _ (by norm_num)⟩ = ∑ k : Fin 8192, f k := by
  have hR : ∑ k : Fin 8192, f k = ∑ i ∈ range (16 * 512), ext0 f i := by
    rw [show (16 * 512 : ℕ) = 8192 from rfl, ← Fin.sum_univ_eq_sum_range]
    refine sum_congr rfl fun k _ => ?_
    simp only [ext0, dif_pos k.isLt, Fin.eta]
  have hL : ∀ j ∈ range 16, ∑ c : Fin 512, f ⟨(512 * j + c.val) % 8192, Nat.mod_lt _ (by norm_num)⟩
      = ∑ c ∈ range 512, ext0 f (512 * j + c) := by
    intro j hj
    rw [← Fin.sum_univ_eq_sum_range (fun c => ext0 f (512 * j + c))]
    refine sum_congr rfl fun c _ => ?_
    have hj' : j < 16 := mem_range.mp hj
    have hlt : 512 * j + c.val < 8192 := by have := c.isLt; omega
    simp only [ext0, dif_pos hlt, Nat.mod_eq_of_lt hlt]
  rw [hR, sum_congr rfl hL, sum_runs]

/-! ## The tile-by-tile form -/

/-- After at least one tile, the closing `(weighted sum) · (1 / normaliser) · (1/16)` is the quotient of the sums
    over the tiles seen, times 1/16. -/
theorem online_closed {ι δ : Type*} [Fintype ι] [Nonempty ι] (S : ℕ → ι → ℝ) (V : ℕ → ι → δ → ℝ) {n : ℕ} (hn : 0 < n)
    {m l : EReal} {a : δ → EReal} (h : Inv S V n m l a) (d : δ) :
    a d * Ideal.div ((1 : ℝ) : EReal) l * ((1 / 16 : ℝ) : EReal)
      = (((∑ j ∈ range n, ∑ c, Real.exp (S j c) * V j c d) / (∑ j ∈ range n, ∑ c, Real.exp (S j c)) * (1 / 16) : ℝ) : EReal) :=
  Cert.TileSums.online_closed_scaled S V hn h d (1 / 16)

/-! ## The all-at-once form -/

/-- The scale as a quotient is 1/16: the square root of 256 is 16. -/
theorem scaleQuot_eq : scaleQuot = ((1 / 16 : ℝ) : EReal) := by
  unfold scaleQuot
  rw [Cert.Consts.ofBits_one, Cert.Consts.ofBits_256, Ideal.sqrt_coe, if_neg (by norm_num),
    show Real.sqrt 256 = 16 from by rw [show (256 : ℝ) = 16 ^ 2 by norm_num, Real.sqrt_sq (by norm_num)],
    Ideal.div_coe (by norm_num), EReal.coe_one, one_mul]

/-- The all-at-once form on real scores and values is the closed form. -/
theorem allAtOnce_closed (s v : Fin 8192 → ℝ) :
    attnAllAtOnce (fun j => ((s j : ℝ) : EReal)) (fun j => ((v j : ℝ) : EReal)) = ((attnReal s v : ℝ) : EReal) := by
  haveI : Nonempty (Fin 8192) := ⟨⟨0, by norm_num⟩⟩
  obtain ⟨M, hM⟩ := fold_max_coe s
  have hmax : rowMax (fun j => ((s j : ℝ) : EReal)) = (M : EReal) := by
    unfold rowMax negInf
    rw [Cert.Consts.ofBits_negInf, hM, max_bot_left]
  unfold attnAllAtOnce
  rw [hmax, scaleQuot_eq]
  unfold zero
  rw [Cert.Consts.ofBits_zero]
  have hterm : ∀ j : Fin 8192,
      Ideal.div (Ideal.exp (((s j : ℝ) : EReal) - (M : EReal))) (0 + ∑ j' : Fin 8192, Ideal.exp (((s j' : ℝ) : EReal) - (M : EReal)))
          * ((1 / 16 : ℝ) : EReal) * ((v j : ℝ) : EReal)
        = Ideal.div (Ideal.exp (((s j : ℝ) : EReal) - (M : EReal))) (0 + ∑ j' : Fin 8192, Ideal.exp (((s j' : ℝ) : EReal) - (M : EReal)))
          * (((1 / 16 * v j : ℝ)) : EReal) := by
    intro j
    rw [mul_assoc, ← EReal.coe_mul]
  simp only [hterm]
  rw [softmax_shift s (fun j => 1 / 16 * v j) M]
  unfold attnReal
  refine congrArg (fun x : ℝ => (x : EReal)) ?_
  have : ∑ k, Real.exp (s k) * (1 / 16 * v k) = 1 / 16 * ∑ k, Real.exp (s k) * v k := by
    rw [mul_sum]; exact sum_congr rfl fun k _ => by ring
  rw [this]; ring

end Cert.Attn.Algebra

end
-- ==== Proof.AttnRows.lean ====
/-
  Each query row's three running quantities follow the online-softmax invariant.

  Let the query block, the keys and the values be real: q r d = qR r d, key row j = kR j, value row j = vR j. Tile n of
  512 keys holds the rows 512·n + c. For a fixed query row r the tile's scores are the real inner products of qR r with
  those keys, and its values the real rows of vR. The recursion on the three quantities then starts, at the first tile,
  from (−∞, 0, 0) and is, at every later tile, one step of the invariant: after n ≥ 1 tiles the maximum is a real
  number M, the normaliser is Σ exp (score − M) and the weighted sums are Σ exp (score − M) · value over the tiles seen.
-/
import proofs.«145131_j73126113182197_2_alg».proof.Proof.AttnBody
import proofs.«145131_j73126113182197_2_alg».proof.Proof.AttnStep
import proofs.«145131_j73126113182197_2_alg».proof.Proof.AttnAlgebra

set_option maxRecDepth 16384

noncomputable section

open Idealize.ShloMosaic Idealize.ShloMosaic.ValueIdx Finset

namespace Cert.KernelIdeal.AttnRows

open Cert.KernelIdeal Cert.KernelIdeal.Gen Cert.KernelIdeal.AttnBody Cert.KernelIdeal.AttnStep
open Cert.OnlineSoftmax Cert.Attn.Algebra

/-- Key row 512·n + c (reduced mod 8192, which changes nothing for the sixteen tiles). -/
def key (n : ℕ) (c : Fin 512) : Fin 8192 := ⟨(512 * n + c.val) % 8192, Nat.mod_lt _ (by norm_num)⟩

theorem key_val (k : Fin k2_t1_loop.trips) (c : Fin 512) : (key k.val c).val = 512 * k.val + c.val := by
  have h1 := k.isLt
  have h2 := trips_eq
  have h3 := c.isLt
  exact Nat.mod_eq_of_lt (by omega)

/-- Entry (c, d) of key tile k is entry d of key row 512·k + c. -/
theorem keyTile_apply (x1 : Vec Ideal S8192x256 .bf16) (k : Fin k2_t1_loop.trips) (c : Fin 512) (d : Fin 256) :
    keyTile x1 k (ix2 c d) = x1 (ix2 (key k.val c) d) := by
  unfold keyTile
  show x1 ((Rect.unit (s := S8192x256) (k2_off1 k) S512x256.size (k2_off1_inb k)).emb (ix2 c d)) = x1 (ix2 (key k.val c) d)
  refine congrArg x1 (funext fun a => Fin.ext ?_)
  match a with
  | ⟨0, _⟩ =>
    show (k2_off1 k) 0 + 1 * c.val = (key k.val c).val
    rw [k2_off1_eq, key_val]
    show 512 * k.val + 1 * c.val = _
    omega
  | ⟨1, _⟩ =>
    show (k2_off1 k) 1 + 1 * d.val = d.val
    rw [k2_off1_eq]
    show 0 + 1 * d.val = d.val
    omega

/-- Entry (c, e) of value tile k is entry e of value row 512·k + c. -/
theorem valTile_apply (x2 : Vec Ideal S8192x512 .bf16) (k : Fin k2_t1_loop.trips) (c : Fin 512) (e : Fin 512) :
    valTile x2 k (ix2 c e) = x2 (ix2 (key k.val c) e) := by
  unfold valTile
  show x2 ((Rect.unit (s := S8192x512) (k2_off2 k) S512x512.size (k2_off2_inb k)).emb (ix2 c e)) = x2 (ix2 (key k.val c) e)
  refine congrArg x2 (funext fun a => Fin.ext ?_)
  match a with
  | ⟨0, _⟩ =>
    show (k2_off2 k) 0 + 1 * c.val = (key k.val c).val
    rw [k2_off2_eq, key_val]
    show 512 * k.val + 1 * c.val = _
    omega
  | ⟨1, _⟩ =>
    show (k2_off2 k) 1 + 1 * e.val = e.val
    rw [k2_off2_eq]
    show 0 + 1 * e.val = e.val
    omega

section Row

variable (q : FVec Ideal S1024x256 .bf16) (x1 : Vec Ideal S8192x256 .bf16) (x2 : Vec Ideal S8192x512 .bf16)
variable (qR : Fin 1024 → Fin 256 → ℝ) (kR : Fin 8192 → Fin 256 → ℝ) (vR : Fin 8192 → Fin 512 → ℝ)

/-- The real score of block row r against key row j. -/
def rowScore (r : Fin 1024) (j : Fin 8192) : ℝ := ∑ d : Fin 256, qR r d * kR j d

/-- The real scores of tile n. -/
def tileS (r : Fin 1024) (n : ℕ) (c : Fin 512) : ℝ := rowScore qR kR r (key n c)

/-- The real values of tile n. -/
def tileV (n : ℕ) (c : Fin 512) (e : Fin 512) : ℝ := vR (key n c) e

variable (hq : ∀ r d, q (ix2 r d) = ((qR r d : ℝ) : EReal)) (hk : ∀ j d, x1 (ix2 j d) = ((kR j d : ℝ) : EReal))
  (hv : ∀ j e, x2 (ix2 j e) = ((vR j e : ℝ) : EReal))

include hq hk in
theorem tileScore_coe (r : Fin 1024) (k : Fin k2_t1_loop.trips) (c : Fin 512) :
    tileScore q (keyTile x1 k) r c = ((tileS qR kR r k.val c : ℝ) : EReal) := by
  unfold tileScore tileS rowScore
  rw [coe_sum]
  refine sum_congr rfl fun d _ => ?_
  rw [hq, keyTile_apply, hk, EReal.coe_mul]

include hv in
theorem valTile_coe (k : Fin k2_t1_loop.trips) (c : Fin 512) (e : Fin 512) :
    valTile x2 k (ix2 c e) = ((tileV vR k.val c e : ℝ) : EReal) := by
  unfold tileV
  rw [valTile_apply, hv]

/-- One tile's update at row r, in terms of the three quantities it finds. -/
theorem tile_row (k : Fin k2_t1_loop.trips) (st : St Ideal) (r : Fin 1024) :
    (tile q x1 x2 k st).1 (ix2 r (0 : Fin 1))
        = max (st.1 (ix2 r (0 : Fin 1))) ((univ : Finset (Fin 512)).fold max (⊥ : EReal) (fun c => tileScore q (keyTile x1 k) r c))
    ∧ (tile q x1 x2 k st).2.1 (ix2 r (0 : Fin 1))
        = Ideal.exp (st.1 (ix2 r (0 : Fin 1)) - max (st.1 (ix2 r (0 : Fin 1))) ((univ : Finset (Fin 512)).fold max (⊥ : EReal) (fun c => tileScore q (keyTile x1 k) r c)))
            * st.2.1 (ix2 r (0 : Fin 1))
          + ∑ c : Fin 512, Ideal.exp (tileScore q (keyTile x1 k) r c - max (st.1 (ix2 r (0 : Fin 1))) ((univ : Finset (Fin 512)).fold max (⊥ : EReal) (fun c => tileScore q (keyTile x1 k) r c)))
    ∧ ∀ e : Fin 512, (tile q x1 x2 k st).2.2 (ix2 r e)
        = Ideal.exp (st.1 (ix2 r (0 : Fin 1)) - max (st.1 (ix2 r (0 : Fin 1))) ((univ : Finset (Fin 512)).fold max (⊥ : EReal) (fun c => tileScore q (keyTile x1 k) r c)))
            * st.2.2 (ix2 r e)
          + ∑ c : Fin 512, Ideal.exp (tileScore q (keyTile x1 k) r c - max (st.1 (ix2 r (0 : Fin 1))) ((univ : Finset (Fin 512)).fold max (⊥ : EReal) (fun c => tileScore q (keyTile x1 k) r c)))
              * valTile x2 k (ix2 c e) :=
  ⟨pay14_apply q (keyTile x1 k) st.1 r, pay12_apply q (keyTile x1 k) st.1 st.2.1 r,
    fun e => pay13_apply q (keyTile x1 k) (valTile x2 k) st.1 st.2.2 r e⟩

include hq hk hv in
/-- After n ≥ 1 tiles row r's three quantities satisfy the invariant for its real scores and values. -/
theorem row_inv (r : Fin 1024) : ∀ n, 0 < n → n ≤ k2_t1_loop.trips →
    Inv (tileS qR kR r) (tileV vR) n ((stateAt q x1 x2 n).1 (ix2 r (0 : Fin 1))) ((stateAt q x1 x2 n).2.1 (ix2 r (0 : Fin 1)))
      (fun e : Fin 512 => (stateAt q x1 x2 n).2.2 (ix2 r e)) := by
  haveI : Nonempty (Fin 512) := ⟨⟨0, by norm_num⟩⟩
  intro n
  induction n with
  | zero => intro h; exact absurd h (lt_irrefl 0)
  | succ n ih =>
    intro _ hle
    have hn : n < k2_t1_loop.trips := hle
    have hst : stateAt q x1 x2 (n + 1) = tile q x1 x2 ⟨n, hn⟩ (stateAt q x1 x2 n) := by
      rw [stateAt, dif_pos hn]
    obtain ⟨e1, e2, e3⟩ := tile_row q x1 x2 ⟨n, hn⟩ (stateAt q x1 x2 n) r
    rw [hst, e1, e2, funext e3]
    rcases Nat.eq_zero_or_pos n with rfl | hpos
    · have h0 : stateAt q x1 x2 0 = (k2_pay2 (F := Ideal), k2_pay3 (F := Ideal), k2_pay4 (F := Ideal)) := rfl
      rw [h0]
      dsimp only
      rw [pay2_apply, pay3_apply]
      simp only [pay4_apply]
      exact inv_first (tileS qR kR r) (tileV vR) (fun c => tileScore q (keyTile x1 ⟨0, hn⟩) r c)
        (fun c => tileScore_coe q x1 qR kR hq hk r ⟨0, hn⟩ c) (fun c e => valTile x2 ⟨0, hn⟩ (ix2 c e))
        (fun c e => valTile_coe x2 vR hv ⟨0, hn⟩ c e)
    · exact inv_step (tileS qR kR r) (tileV vR) hpos (ih hpos (Nat.le_of_lt hn))
        (fun c => tileScore q (keyTile x1 ⟨n, hn⟩) r c) (fun c => tileScore_coe q x1 qR kR hq hk r ⟨n, hn⟩ c)
        (fun c e => valTile x2 ⟨n, hn⟩ (ix2 c e)) (fun c e => valTile_coe x2 vR hv ⟨n, hn⟩ c e)

/-- Sixteen tiles' sums are the sums over all keys: the tile-wise quotient is the closed form of the row's real scores. -/
theorem tiles_closed (r : Fin 1024) (e : Fin 512) :
    (∑ j ∈ range 16, ∑ c : Fin 512, Real.exp (tileS qR kR r j c) * tileV vR j c e)
        / (∑ j ∈ range 16, ∑ c : Fin 512, Real.exp (tileS qR kR r j c)) * (1 / 16)
      = attnReal (rowScore qR kR r) (fun k => vR k e) := by
  unfold attnReal
  rw [← sum_tiles16 (fun k => Real.exp (rowScore qR kR r k) * vR k e), ← sum_tiles16 (fun k => Real.exp (rowScore qR kR r k))]
  rfl

include hq hk hv in
/-- After all sixteen tiles the closing function at row r and column e is the closed form of the row's real scores
    against the real column e of the values. -/
theorem block_closed (r : Fin 1024) (e : Fin 512) :
    k2_pay5 (stateAt q x1 x2 k2_t1_loop.trips).2.1 (stateAt q x1 x2 k2_t1_loop.trips).2.2 (ix2 r e)
      = ((attnReal (rowScore qR kR r) (fun k => vR k e) : ℝ) : EReal) := by
  haveI : Nonempty (Fin 512) := ⟨⟨0, by norm_num⟩⟩
  have hpos : 0 < k2_t1_loop.trips := by rw [trips_eq]; norm_num
  have hinv := row_inv q x1 x2 qR kR vR hq hk hv r k2_t1_loop.trips hpos le_rfl
  rw [pay5_apply, Cert.Consts.ofBits_one, Cert.Consts.ofBits_sixteenth]
  have hc := online_closed (tileS qR kR r) (tileV vR) hpos hinv e
  rw [trips_eq] at hc
  rw [← tiles_closed qR kR vR r e]
  exact hc

end Row

end Cert.KernelIdeal.AttnRows

end
-- ==== Proof.AttnReal.lean ====
/-
  Real arrays behind extended-real ones.

  When every entry of the four arrays is a real number, the projections and the scores are real numbers too (finite
  sums of products of reals), and the all-at-once attention of a row is the closed form of its real scores and values.
-/
import proofs.«145131_j73126113182197_2_alg».proof.Proof.AttnAlgebra

noncomputable section

namespace Cert.Attn.Algebra

open Idealize.ShloMosaic Idealize.ShloMosaic.ValueIdx Finset Cert.Attn

/-- The real projection: `Σ_e x r e · w d e`. -/
def projR (x : Fin 8192 → Fin 256 → ℝ) (w : Fin 256 → Fin 256 → ℝ) (r : Fin 8192) (d : Fin 256) : ℝ :=
  ∑ e : Fin 256, x r e * w d e

/-- The real score: `Σ_d q r d · k j d`. -/
def scoreR (qq kk : Fin 8192 → Fin 256 → ℝ) (r j : Fin 8192) : ℝ := ∑ d : Fin 256, qq r d * kk j d

/-- The result at row r and column e for real values vR: the closed form of row r's real scores. -/
def outR (imgR textR : Fin 8192 → Fin 256 → ℝ) (wqR wkR : Fin 256 → Fin 256 → ℝ) (vR : Fin 8192 → Fin 256 → ℝ)
    (r : Fin 8192) (e : Fin 256) : ℝ :=
  attnReal (scoreR (projR imgR wqR) (projR textR wkR) r) (fun k => vR k e)

theorem proj_coe (x : Arr 8192 256) (w : Arr 256 256) (xR : Fin 8192 → Fin 256 → ℝ) (wR : Fin 256 → Fin 256 → ℝ)
    (hx : ∀ r e, x (ix2 r e) = ((xR r e : ℝ) : EReal)) (hw : ∀ d e, w (ix2 d e) = ((wR d e : ℝ) : EReal))
    (r : Fin 8192) (d : Fin 256) : proj x w r d = ((projR xR wR r d : ℝ) : EReal) := by
  unfold proj projR
  rw [coe_sum]
  exact sum_congr rfl fun e _ => by rw [hx, hw, EReal.coe_mul]

section

variable (img text : Arr 8192 256) (wq wk : Arr 256 256)
variable (imgR textR : Fin 8192 → Fin 256 → ℝ) (wqR wkR : Fin 256 → Fin 256 → ℝ)
variable (h0 : ∀ r e, img (ix2 r e) = ((imgR r e : ℝ) : EReal)) (h1 : ∀ r e, text (ix2 r e) = ((textR r e : ℝ) : EReal))
  (h2 : ∀ d e, wq (ix2 d e) = ((wqR d e : ℝ) : EReal)) (h3 : ∀ d e, wk (ix2 d e) = ((wkR d e : ℝ) : EReal))

include h0 h1 h2 h3 in
theorem scores_coe (r j : Fin 8192) :
    scores img text wq wk r j = ((scoreR (projR imgR wqR) (projR textR wkR) r j : ℝ) : EReal) := by
  unfold scores score scoreR
  rw [coe_sum]
  exact sum_congr rfl fun d _ => by
    rw [proj_coe img wq imgR wqR h0 h2, proj_coe text wk textR wkR h1 h3, EReal.coe_mul]

include h0 h1 h2 h3 in
/-- The all-at-once attention of row r against a real column of values is the closed form. -/
theorem ref_closed (v : Arr 8192 256) (vR : Fin 8192 → Fin 256 → ℝ) (hv : ∀ k e, v (ix2 k e) = ((vR k e : ℝ) : EReal))
    (r : Fin 8192) (e : Fin 256) :
    attnAllAtOnce (scores img text wq wk r) (fun j => v (ix2 j e)) = ((outR imgR textR wqR wkR vR r e : ℝ) : EReal) := by
  have hs : scores img text wq wk r = fun j => ((scoreR (projR imgR wqR) (projR textR wkR) r j : ℝ) : EReal) :=
    funext fun j => scores_coe img text wq wk imgR textR wqR wkR h0 h1 h2 h3 r j
  have hvv : (fun j => v (ix2 j e)) = fun j => ((vR j e : ℝ) : EReal) := funext fun j => hv j e
  rw [hs, hvv]
  exact allAtOnce_closed _ _

end

end Cert.Attn.Algebra

end
-- ==== Proof.AttnArray.lean ====
/-
  The attention region's arrays, read block by block.

  The region runs over eight grid points. Point t reads rows 1024·t … 1024·t+1023 of the query array and the whole
  key and value arrays, and writes back rows 1024·t … 1024·t+1023 (all 256 columns) of each of its two output arrays.
  The eight row blocks tile the 8192 rows. So whatever function G of the whole array one has in mind: if at every
  point t the block the body leaves is rows 1024·t … 1024·t+1023 of G, then after the last point the output array is G.
-/
import proofs.«145131_j73126113182197_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.AttnArray

open Cert.KernelIdeal Cert.KernelIdeal.Gen

section Regions
variable (V : (c : Dev nD) → (b : Ref sig .tc) → Buf (Elt Ideal) ((c : Thread nD τ).loc b))

/-- The index maps of the region over its eight points: the query window and both output windows sit at row block t,
    column block 0; the key window and the value window never move. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The five arrays the region's windows lie over, in window order: the query array, the key array, the value array and
    the two output arrays. -/
theorem arrRef2_eq : Pipeline.arrRef spec2 0 = main_v0 ∧ Pipeline.arrRef spec2 1 = main_v1 ∧ Pipeline.arrRef spec2 2 = main_v4
    ∧ Pipeline.arrRef spec2 3 = main_v5_0 ∧ Pipeline.arrRef spec2 4 = main_v5_1 := ⟨rfl, rfl, rfl, rfl, rfl⟩

/-- There are eight points. -/
theorem point_lt (t : Fin cfg2.N) : t.val < 8 := t.isLt

/-- Row p of block t is a row of the array. -/
theorem row_lt (t : Fin cfg2.N) (p : Fin 1024) : 1024 * t.val + p.val < 8192 := by
  have ht : t.val < 8 := t.isLt
  have hp := p.isLt
  omega

/-! ## The input windows' blocks -/

/-- Row p of point t's block of the query array is row 1024·t + p of the array. -/
theorem iblk2_0_apply (c : Dev nD) (t : Fin cfg2.N) (p : Fin 1024) (d : Fin 256) (r : Fin 8192)
    (hr : r.val = 1024 * t.val + p.val) :
    (iblk2 V c 0 t : Vec Ideal S1024x256 .bf16) (ix2 p d) = (V c main_v0 : Vec Ideal S8192x256 .bf16) (ix2 r d) := by
  obtain ⟨e0, e1, -⟩ := idx_facts2 t
  unfold iblk2
  rw [View.read_apply]
  show (V c main_v0 : Vec Ideal S8192x256 .bf16) _ = _
  refine congrArg _ ?_
  funext a
  apply Fin.ext
  match a with
  | ⟨0, _⟩ => show win2_0.index t (0 : Fin 2) * 1024 + 1 * p.val = r.val; rw [e0, hr]; omega
  | ⟨1, _⟩ => show win2_0.index t (1 : Fin 2) * 256 + 1 * d.val = d.val; rw [e1]; omega

/-- Every point's block of the key array is the whole array. -/
theorem iblk2_1_eq (c : Dev nD) (t : Fin cfg2.N) :
    (iblk2 V c 1 t : Vec Ideal S8192x256 .bf16) = (V c main_v1 : Vec Ideal S8192x256 .bf16) := by
  obtain ⟨-, -, e2, e3, -⟩ := idx_facts2 t
  funext y
  unfold iblk2
  rw [View.read_apply]
  show (V c main_v1 : Vec Ideal S8192x256 .bf16) _ = _
  refine congrArg _ ?_
  funext a
  apply Fin.ext
  match a with
  | ⟨0, _⟩ => show win2_1.index t (0 : Fin 2) * 8192 + 1 * (y 0).val = (y 0).val; rw [e2]; omega
  | ⟨1, _⟩ => show win2_1.index t (1 : Fin 2) * 256 + 1 * (y 1).val = (y 1).val; rw [e3]; omega

/-- Every point's block of the value array is the whole array. -/
theorem iblk2_2_eq (c : Dev nD) (t : Fin cfg2.N) :
    (iblk2 V c 2 t : Vec Ideal S8192x512 .bf16) = (V c main_v4 : Vec Ideal S8192x512 .bf16) := by
  obtain ⟨-, -, -, -, e4, e5, -⟩ := idx_facts2 t
  funext y
  unfold iblk2
  rw [View.read_apply]
  show (V c main_v4 : Vec Ideal S8192x512 .bf16) _ = _
  refine congrArg _ ?_
  funext a
  apply Fin.ext
  match a with
  | ⟨0, _⟩ => show win2_2.index t (0 : Fin 2) * 8192 + 1 * (y 0).val = (y 0).val; rw [e4]; omega
  | ⟨1, _⟩ => show win2_2.index t (1 : Fin 2) * 512 + 1 * (y 1).val = (y 1).val; rw [e5]; omega

/-! ## The first output array -/

/-- Where point t's block of the first output sits in the array: row p of the block is row 1024·t + p. -/
theorem emb3 (t : Fin cfg2.N) (p : Fin 1024) (e : Fin 256) :
    ((cfg2.win 3).blk t).view.emb (ix2 p e) = (ix2 (⟨1024 * t.val + p.val, row_lt t p⟩ : Fin 8192) e : S8192x256.Idx) := by
  obtain ⟨-, -, -, -, -, -, e6, e7, -⟩ := idx_facts2 t
  funext a
  apply Fin.ext
  match a with
  | ⟨0, _⟩ => show win2_3.index t (0 : Fin 2) * 1024 + 1 * p.val = 1024 * t.val + p.val; rw [e6]; omega
  | ⟨1, _⟩ => show win2_3.index t (1 : Fin 2) * 256 + 1 * e.val = e.val; rw [e7]; omega

/-- An index of the first output array lies in point t's block iff each coordinate is in the block's range. -/
theorem mem_blk3 (t : Fin cfg2.N) (i : S8192x256.Idx) :
    i ∈ ((cfg2.win 3).blk t).view.set ↔ ∀ a : Fin 2, win2_3.index t a * S1024x256.size a ≤ (i a).val ∧ (i a).val < win2_3.index t a * S1024x256.size a + S1024x256.size a := by
  show i ∈ ((View.whole main_v5_0).slice (win2_3.rect t)).set ↔ _
  rw [View.set_slice_whole, Rect.mem_set_unit]
  exact Iff.rfl

/-- Row r of the first output is written by point r / 1024. -/
theorem cover3 (i : S8192x256.Idx) : ∃ t : Fin cfg2.N, (cfg2.win 3).flush t = true ∧ i ∈ ((cfg2.win 3).blk t).view.set := by
  have hi0 : (i 0).val < 8192 := (i 0).isLt
  have hi1 : (i 1).val < 256 := (i 1).isLt
  have ht : (i 0).val / 1024 < cfg2.N := by show _ < 8; omega
  refine ⟨⟨(i 0).val / 1024, ht⟩, flush2_3 _, ?_⟩
  obtain ⟨-, -, -, -, -, -, e6, e7, -⟩ := idx_facts2 ⟨(i 0).val / 1024, ht⟩
  rw [mem_blk3]
  intro a
  match a with
  | ⟨0, _⟩ =>
    show win2_3.index ⟨(i 0).val / 1024, ht⟩ (0 : Fin 2) * 1024 ≤ (i 0).val ∧ (i 0).val < win2_3.index ⟨(i 0).val / 1024, ht⟩ (0 : Fin 2) * 1024 + 1024
    rw [e6]; show (i 0).val / 1024 * 1024 ≤ (i 0).val ∧ (i 0).val < (i 0).val / 1024 * 1024 + 1024; omega
  | ⟨1, _⟩ =>
    show win2_3.index ⟨(i 0).val / 1024, ht⟩ (1 : Fin 2) * 256 ≤ (i 1).val ∧ (i 1).val < win2_3.index ⟨(i 0).val / 1024, ht⟩ (1 : Fin 2) * 256 + 256
    rw [e7]; omega

/-- If at every point t the block the body leaves in the first output's buffer is rows 1024·t … 1024·t+1023 of G,
    the first output array ends as G. -/
theorem array3_of_blocks (c : Dev nD) (G : S8192x256.Idx → EReal)
    (hG : ∀ (t : Fin cfg2.N) (p : Fin 1024) (e : Fin 256) (r : Fin 8192), r.val = 1024 * t.val + p.val →
      (outsAt2 (F := Ideal) V c t).1 (ix2 p e) = G (ix2 r e)) :
    (dat2 (F := Ideal) V c).arrAt 3 cfg2.N = G := by
  refine (dat2 (F := Ideal) V c).arrAt_eq_of_cover 3 G (fun t _ => ?_) cover3
  show (cfg2.win 3).cut (grid2.coords t) ((dat2 (F := Ideal) V c).after 3 t) = _
  rw [after2_3]
  funext j
  obtain ⟨p, e, rfl⟩ : ∃ (p : Fin 1024) (e : Fin 256), j = ix2 p e := ⟨j 0, j 1, eq_ix2 j⟩
  show (outsAt2 (F := Ideal) V c t).1 (ix2 p e) = G (((cfg2.win 3).blk t).view.emb (ix2 p e))
  rw [emb3]
  exact hG t p e _ rfl

/-! ## The second output array -/

/-- Where point t's block of the second output sits in the array: row p of the block is row 1024·t + p. -/
theorem emb4 (t : Fin cfg2.N) (p : Fin 1024) (e : Fin 256) :
    ((cfg2.win 4).blk t).view.emb (ix2 p e) = (ix2 (⟨1024 * t.val + p.val, row_lt t p⟩ : Fin 8192) e : S8192x256.Idx) := by
  obtain ⟨-, -, -, -, -, -, -, -, e8, e9⟩ := idx_facts2 t
  funext a
  apply Fin.ext
  match a with
  | ⟨0, _⟩ => show win2_4.index t (0 : Fin 2) * 1024 + 1 * p.val = 1024 * t.val + p.val; rw [e8]; omega
  | ⟨1, _⟩ => show win2_4.index t (1 : Fin 2) * 256 + 1 * e.val = e.val; rw [e9]; omega

/-- An index of the second output array lies in point t's block iff each coordinate is in the block's range. -/
theorem mem_blk4 (t : Fin cfg2.N) (i : S8192x256.Idx) :
    i ∈ ((cfg2.win 4).blk t).view.set ↔ ∀ a : Fin 2, win2_4.index t a * S1024x256.size a ≤ (i a).val ∧ (i a).val < win2_4.index t a * S1024x256.size a + S1024x256.size a := by
  show i ∈ ((View.whole main_v5_1).slice (win2_4.rect t)).set ↔ _
  rw [View.set_slice_whole, Rect.mem_set_unit]
  exact Iff.rfl

/-- Row r of the second output is written by point r / 1024. -/
theorem cover4 (i : S8192x256.Idx) : ∃ t : Fin cfg2.N, (cfg2.win 4).flush t = true ∧ i ∈ ((cfg2.win 4).blk t).view.set := by
  have hi0 : (i 0).val < 8192 := (i 0).isLt
  have hi1 : (i 1).val < 256 := (i 1).isLt
  have ht : (i 0).val / 1024 < cfg2.N := by show _ < 8; omega
  refine ⟨⟨(i 0).val / 1024, ht⟩, flush2_4 _, ?_⟩
  obtain ⟨-, -, -, -, -, -, -, -, e8, e9⟩ := idx_facts2 ⟨(i 0).val / 1024, ht⟩
  rw [mem_blk4]
  intro a
  match a with
  | ⟨0, _⟩ =>
    show win2_4.index ⟨(i 0).val / 1024, ht⟩ (0 : Fin 2) * 1024 ≤ (i 0).val ∧ (i 0).val < win2_4.index ⟨(i 0).val / 1024, ht⟩ (0 : Fin 2) * 1024 + 1024
    rw [e8]; show (i 0).val / 1024 * 1024 ≤ (i 0).val ∧ (i 0).val < (i 0).val / 1024 * 1024 + 1024; omega
  | ⟨1, _⟩ =>
    show win2_4.index ⟨(i 0).val / 1024, ht⟩ (1 : Fin 2) * 256 ≤ (i 1).val ∧ (i 1).val < win2_4.index ⟨(i 0).val / 1024, ht⟩ (1 : Fin 2) * 256 + 256
    rw [e9]; omega

/-- If at every point t the block the body leaves in the second output's buffer is rows 1024·t … 1024·t+1023 of G,
    the second output array ends as G. -/
theorem array4_of_blocks (c : Dev nD) (G : S8192x256.Idx → EReal)
    (hG : ∀ (t : Fin cfg2.N) (p : Fin 1024) (e : Fin 256) (r : Fin 8192), r.val = 1024 * t.val + p.val →
      (outsAt2 (F := Ideal) V c t).2 (ix2 p e) = G (ix2 r e)) :
    (dat2 (F := Ideal) V c).arrAt 4 cfg2.N = G := by
  refine (dat2 (F := Ideal) V c).arrAt_eq_of_cover 4 G (fun t _ => ?_) cover4
  show (cfg2.win 4).cut (grid2.coords t) ((dat2 (F := Ideal) V c).after 4 t) = _
  rw [after2_4]
  funext j
  obtain ⟨p, e, rfl⟩ : ∃ (p : Fin 1024) (e : Fin 256), j = ix2 p e := ⟨j 0, j 1, eq_ix2 j⟩
  show (outsAt2 (F := Ideal) V c t).2 (ix2 p e) = G (((cfg2.win 4).blk t).view.emb (ix2 p e))
  rw [emb4]
  exact hG t p e _ rfl

end Regions

end Cert.KernelIdeal.AttnArray

end
-- ==== Proof.AttnValue.lean ====
/-
  The attention region's two result arrays as whole-array functions.

  Suppose the region finds real arrays at its three inputs: queries QR, keys KR (8192 rows of 256) and values VR (8192
  rows of 512). At grid point t the body sees query rows 1024·t … 1024·t+1023 and all keys and values, and leaves in its
  two output blocks, at local row p and column e, the closed form of row 1024·t + p's real scores against column e
  (first result) and column 256 + e (second result) of the values. The eight blocks tile the 8192 rows, so each result
  array is that closed form at every row and column.
-/
import proofs.«145131_j73126113182197_2_alg».proof.Proof.AttnRows
import proofs.«145131_j73126113182197_2_alg».proof.Proof.AttnReal
import proofs.«145131_j73126113182197_2_alg».proof.Proof.AttnArray

set_option maxRecDepth 16384

noncomputable section

open Idealize.ShloMosaic Idealize.ShloMosaic.TcCoe Idealize.ShloMosaic.ValueIdx Idealize.SL.Sem Finset

namespace Cert.KernelIdeal.AttnValue

open Cert.KernelIdeal Cert.KernelIdeal.Gen Cert.KernelIdeal.AttnBody Cert.KernelIdeal.AttnStep Cert.KernelIdeal.AttnRows
open Cert.KernelIdeal.AttnArray Cert.Attn.Algebra

/-- Column e of the left half of the 512 value columns. -/
abbrev colL (e : Fin 256) : Fin 512 := ⟨e.val, by have := e.isLt; omega⟩
/-- Column e of the right half. -/
abbrev colR (e : Fin 256) : Fin 512 := ⟨256 + e.val, by have := e.isLt; omega⟩

section Block

variable (x0 : Vec Ideal S1024x256 .bf16) (x1 : Vec Ideal S8192x256 .bf16) (x2 : Vec Ideal S8192x512 .bf16)
variable (qR : Fin 1024 → Fin 256 → ℝ) (kR : Fin 8192 → Fin 256 → ℝ) (vR : Fin 8192 → Fin 512 → ℝ)
variable (hq : ∀ r d, x0 (ix2 r d) = ((qR r d : ℝ) : EReal)) (hk : ∀ j d, x1 (ix2 j d) = ((kR j d : ℝ) : EReal))
  (hv : ∀ j e, x2 (ix2 j e) = ((vR j e : ℝ) : EReal))
variable (c : Dev nD) (i : grid2.Coords) (arg1 : Memref sig .tc .vmem S1024x256 .bf16) (harg1 : arg1.IsWhole) (arg2 : Memref sig .tc .vmem S8192x256 .bf16) (harg2 : arg2.IsWhole) (arg3 : Memref sig .tc .vmem S8192x512 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x512 .f32) (harg8 : arg8.IsWhole)

include hq in
theorem hq1 (r : Fin 1024) (d : Fin 256) : k2_pay1 x0 (ix2 r d) = ((qR r d : ℝ) : EReal) := by
  unfold k2_pay1
  rw [shapeCast_self]
  exact hq r d

include hq hk hv in
/-- The first output block over real inputs. -/
theorem block3_of (p : Fin 1024) (e : Fin 256) :
    out2_A_3 c i arg1 harg1 arg2 harg2 arg3 harg3 arg4 harg4 arg5 harg5 arg6 harg6 arg7 harg7 arg8 harg8 x0 x1 x2 (ix2 p e)
      = ((attnReal (rowScore qR kR p) (fun k => vR k (colL e)) : ℝ) : EReal) := by
  rw [out3_eq, pay6_apply]
  exact block_closed (k2_pay1 x0) x1 x2 qR kR vR (hq1 x0 qR hq) hk hv p (colL e)

include hq hk hv in
/-- The second output block over real inputs. -/
theorem block4_of (p : Fin 1024) (e : Fin 256) :
    out2_A_4 c i arg1 harg1 arg2 harg2 arg3 harg3 arg4 harg4 arg5 harg5 arg6 harg6 arg7 harg7 arg8 harg8 x0 x1 x2 (ix2 p e)
      = ((attnReal (rowScore qR kR p) (fun k => vR k (colR e)) : ℝ) : EReal) := by
  rw [out4_eq, pay7_apply]
  exact block_closed (k2_pay1 x0) x1 x2 qR kR vR (hq1 x0 qR hq) hk hv p (colR e)

end Block

section Arrays

variable (V : (c : Dev nD) → (b : Ref sig .tc) → Buf (Elt Ideal) ((c : Thread nD τ).loc b)) (c : Dev nD)
variable (QR KR : Fin 8192 → Fin 256 → ℝ) (VR : Fin 8192 → Fin 512 → ℝ)
variable (hQ : ∀ R d, (V c main_v0 : S8192x256.Idx → EReal) (ix2 R d) = ((QR R d : ℝ) : EReal))
  (hK : ∀ j d, (V c main_v1 : S8192x256.Idx → EReal) (ix2 j d) = ((KR j d : ℝ) : EReal))
  (hV : ∀ j e, (V c main_v4 : S8192x512.Idx → EReal) (ix2 j e) = ((VR j e : ℝ) : EReal))

/-- Row 1024·t + p of the arrays. -/
def rowOf (t : Fin cfg2.N) (p : Fin 1024) : Fin 8192 := ⟨1024 * t.val + p.val, row_lt t p⟩

include hQ in
theorem hq_blk (t : Fin cfg2.N) (p : Fin 1024) (d : Fin 256) :
    (iblk2 V c 0 t : Vec Ideal S1024x256 .bf16) (ix2 p d) = ((QR (rowOf t p) d : ℝ) : EReal) :=
  (iblk2_0_apply V c t p d (rowOf t p) rfl).trans (hQ (rowOf t p) d)

include hK in
theorem hk_blk (t : Fin cfg2.N) (j : Fin 8192) (d : Fin 256) :
    (iblk2 V c 1 t : Vec Ideal S8192x256 .bf16) (ix2 j d) = ((KR j d : ℝ) : EReal) :=
  (congrFun (iblk2_1_eq V c t) (ix2 j d)).trans (hK j d)

include hV in
theorem hv_blk (t : Fin cfg2.N) (j : Fin 8192) (e : Fin 512) :
    (iblk2 V c 2 t : Vec Ideal S8192x512 .bf16) (ix2 j e) = ((VR j e : ℝ) : EReal) :=
  (congrFun (iblk2_2_eq V c t) (ix2 j e)).trans (hV j e)

/-- The block row's real scores are the array row's. -/
theorem rowScore_rowOf (t : Fin cfg2.N) (p : Fin 1024) :
    rowScore (fun p' d => QR (rowOf t p') d) KR p = scoreR QR KR (rowOf t p) := rfl

include hQ hK hV in
/-- The first result array. -/
theorem array3 : (dat2 (F := Ideal) V c).arrAt 3 cfg2.N
    = fun i => ((attnReal (scoreR QR KR (i 0)) (fun k => VR k (colL (i 1))) : ℝ) : EReal) := by
  refine array3_of_blocks V c (fun i => ((attnReal (scoreR QR KR (i 0)) (fun k => VR k (colL (i 1))) : ℝ) : EReal))
    (fun t p e r hr => ?_)
  have hrow : rowOf t p = r := Fin.ext hr.symm
  have hb := block3_of (iblk2 V c 0 t) (iblk2 V c 1 t) (iblk2 V c 2 t) (fun p' d => QR (rowOf t p') d) KR VR
    (hq_blk V c QR hQ t) (hk_blk V c KR hK t) (hv_blk V c VR hV t) c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) p e
  unfold outsAt2
  dsimp only
  rw [hb, rowScore_rowOf QR KR t p, hrow]

include hQ hK hV in
/-- The second result array. -/
theorem array4 : (dat2 (F := Ideal) V c).arrAt 4 cfg2.N
    = fun i => ((attnReal (scoreR QR KR (i 0)) (fun k => VR k (colR (i 1))) : ℝ) : EReal) := by
  refine array4_of_blocks V c (fun i => ((attnReal (scoreR QR KR (i 0)) (fun k => VR k (colR (i 1))) : ℝ) : EReal))
    (fun t p e r hr => ?_)
  have hrow : rowOf t p = r := Fin.ext hr.symm
  have hb := block4_of (iblk2 V c 0 t) (iblk2 V c 1 t) (iblk2 V c 2 t) (fun p' d => QR (rowOf t p') d) KR VR
    (hq_blk V c QR hQ t) (hk_blk V c KR hK t) (hv_blk V c VR hV t) c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) p e
  unfold outsAt2
  dsimp only
  rw [hb, rowScore_rowOf QR KR t p, hrow]

end Arrays

end Cert.KernelIdeal.AttnValue

end
-- ==== Proof.ProjRegions.lean ====
/-
  The two projection regions of the idealized kernel, read as mathematics.

  Each region runs over eight grid points. Point t loads rows 1024·t … 1024·t+1023 of a row family x (8192 rows of
  256 numbers) and the whole square matrix w, and stores, for each loaded row r and each d, the sum over e of
  x r e · w d e: the contraction runs over the second axis of both operands, and it is taken into a zero accumulator,
  so over the extended reals it is just that sum (a change of float format is the identity there). The eight row
  blocks tile the 8192 rows, so after the last point the output array holds Σ_e x r e · w d e at every (r, d):
  the projection of the specification.
-/
import proofs.«145131_j73126113182197_2_alg».proof.Proof.Gen.KernelIdeal.Frame
import proofs.«145131_j73126113182197_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.ProjValue

open Cert.KernelIdeal Cert.KernelIdeal.Gen

/-- The pair of offsets (0, 0) is the constant zero. -/
theorem hz : (![0, 0] : Fin 2 → Nat) = fun _ => 0 := funext fun a => by fin_cases a <;> rfl

/-! ## The contraction of the two loaded blocks at an index -/

/-- The left operand of the contraction at output index (p, q) and contraction index k is read at (p, k). -/
theorem dot_lhs (p : Fin 1024) (q : Fin 256) (k : Fin 256) :
    dot_S1024x256_S256x256_S1024x256_1_1_0_0_n_n.lhsIdx (ix2 p q)
        ((contrEquiv1 dot_S1024x256_S256x256_S1024x256_1_1_0_0_n_n 256 rfl rfl).symm k) = ix2 p k := by
  have hk := contrEquiv1_symm_val dot_S1024x256_S256x256_S1024x256_1_1_0_0_n_n 256 rfl rfl k
  funext a
  apply Fin.ext
  match a with
  | ⟨0, _⟩ =>
    show (dot_S1024x256_S256x256_S1024x256_1_1_0_0_n_n.lhsIdx (ix2 p q) _ 0).val = p.val
    unfold DotDims.lhsIdx
    rw [dif_neg (show ¬(0 : Fin S1024x256.rank) ∈ dot_S1024x256_S256x256_S1024x256_1_1_0_0_n_n.lhsBatch by decide),
      dif_pos (show (0 : Fin S1024x256.rank) ∈ dot_S1024x256_S256x256_S1024x256_1_1_0_0_n_n.lhsNonContracting by decide)]
    rfl
  | ⟨1, _⟩ =>
    exact (dot_S1024x256_S256x256_S1024x256_1_1_0_0_n_n.lhsIdx_val_of_single rfl (ix2 p q) _).trans hk

/-- The right operand is read at (q, k): the contraction is over the SECOND axis of both operands. -/
theorem dot_rhs (p : Fin 1024) (q : Fin 256) (k : Fin 256) :
    dot_S1024x256_S256x256_S1024x256_1_1_0_0_n_n.rhsIdx (ix2 p q)
        ((contrEquiv1 dot_S1024x256_S256x256_S1024x256_1_1_0_0_n_n 256 rfl rfl).symm k) = ix2 q k := by
  have hk := contrEquiv1_symm_val dot_S1024x256_S256x256_S1024x256_1_1_0_0_n_n 256 rfl rfl k
  funext a
  apply Fin.ext
  match a with
  | ⟨0, _⟩ =>
    show (dot_S1024x256_S256x256_S1024x256_1_1_0_0_n_n.rhsIdx (ix2 p q) _ 0).val = q.val
    unfold DotDims.rhsIdx
    rw [dif_neg (show ¬(0 : Fin S256x256.rank) ∈ dot_S1024x256_S256x256_S1024x256_1_1_0_0_n_n.rhsBatch by decide),
      dif_pos (show (0 : Fin S256x256.rank) ∈ dot_S1024x256_S256x256_S1024x256_1_1_0_0_n_n.rhsNonContracting by decide)]
    rfl
  | ⟨1, _⟩ =>
    exact (dot_S1024x256_S256x256_S1024x256_1_1_0_0_n_n.rhsIdx_val_of_single rfl (ix2 p q) _).trans hk

/-- What the first region's body stores at (p, q), from the two blocks it loaded: Σ_e x p e · w q e. -/
theorem pay0_apply (x : Vec Ideal S1024x256 .f32) (w : Vec Ideal S256x256 .f32) (p : Fin 1024) (q : Fin 256) :
    k0_pay1 (F := Ideal) x w (ix2 p q) = ∑ e : Fin 256, x (ix2 p e) * w (ix2 q e) := by
  unfold k0_pay1
  show FloatOps.matmul (φ₁ := .bf16) (φ₂ := .bf16) dot_S1024x256_S256x256_S1024x256_1_1_0_0_n_n none x w (constant (F := Ideal) S1024x256 .f32 0x00000000#32) (ix2 p q) = _
  rw [Ideal.matmul_constant_zero_apply,
    ← Equiv.sum_comp (contrEquiv1 dot_S1024x256_S256x256_S1024x256_1_1_0_0_n_n 256 rfl rfl).symm]
  refine Finset.sum_congr rfl fun k _ => ?_
  rw [dot_lhs, dot_rhs]

/-- The second region's body is the same arithmetic. -/
theorem pay1_apply (x : Vec Ideal S1024x256 .f32) (w : Vec Ideal S256x256 .f32) (p : Fin 1024) (q : Fin 256) :
    k1_pay1 (F := Ideal) x w (ix2 p q) = ∑ e : Fin 256, x (ix2 p e) * w (ix2 q e) := by
  unfold k1_pay1
  show FloatOps.matmul (φ₁ := .bf16) (φ₂ := .bf16) dot_S1024x256_S256x256_S1024x256_1_1_0_0_n_n none x w (constant (F := Ideal) S1024x256 .f32 0x00000000#32) (ix2 p q) = _
  rw [Ideal.matmul_constant_zero_apply,
    ← Equiv.sum_comp (contrEquiv1 dot_S1024x256_S256x256_S1024x256_1_1_0_0_n_n 256 rfl rfl).symm]
  refine Finset.sum_congr rfl fun k _ => ?_
  rw [dot_lhs, dot_rhs]

/-! ## From the eight row blocks to the array -/

section Regions
variable (V : (c : Dev nD) → (b : Ref sig .tc) → Buf (Elt Ideal) ((c : Thread nD τ).loc b))

/-! ### Region 0 -/

/-- The index maps of region 0 over its eight points: the row-family window and the output window sit at row block t,
    column block 0; the matrix window never moves. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of point t's block of the row family is row 1024·t + p of the array. -/
theorem rows0_apply (c : Dev nD) (t : Fin cfg0.N) (p : Fin 1024) (e : Fin 256) (r : Fin 8192)
    (hr : r.val = 1024 * t.val + p.val) :
    (iblk0 V c 0 t : Vec Ideal S1024x256 .f32) (ix2 p e) = (V c main_arg0 : S8192x256.Idx → EReal) (ix2 r e) := by
  obtain ⟨e0, e1, -, -, -, -⟩ := idx_facts0 t
  unfold iblk0
  rw [View.read_apply]
  show (V c main_arg0 : S8192x256.Idx → EReal) _ = _
  refine congrArg _ ?_
  funext a
  apply Fin.ext
  match a with
  | ⟨0, _⟩ => show win0_0.index t (0 : Fin 2) * 1024 + 1 * p.val = r.val; rw [e0, hr]; omega
  | ⟨1, _⟩ => show win0_0.index t (1 : Fin 2) * 256 + 1 * e.val = e.val; rw [e1]; omega

/-- Every point's block of the matrix is the whole matrix. -/
theorem mat0_apply (c : Dev nD) (t : Fin cfg0.N) (q : Fin 256) (e : Fin 256) :
    (iblk0 V c 1 t : Vec Ideal S256x256 .f32) (ix2 q e) = (V c main_arg2 : S256x256.Idx → EReal) (ix2 q e) := by
  obtain ⟨-, -, e2, e3, -, -⟩ := idx_facts0 t
  unfold iblk0
  rw [View.read_apply]
  show (V c main_arg2 : S256x256.Idx → EReal) _ = _
  refine congrArg _ ?_
  funext a
  apply Fin.ext
  match a with
  | ⟨0, _⟩ => show win0_1.index t (0 : Fin 2) * 256 + 1 * q.val = q.val; rw [e2]; omega
  | ⟨1, _⟩ => show win0_1.index t (1 : Fin 2) * 256 + 1 * e.val = e.val; rw [e3]; omega

/-- The projection of the row family `main_arg0` by the matrix `main_arg2`, as an array. -/
abbrev G0 (c : Dev nD) : S8192x256.Idx → EReal :=
  fun i => Cert.Attn.proj (V c main_arg0) (V c main_arg2) (i 0) (i 1)

/-- What point t writes back is block t of the projection. -/
theorem flushed0_eq (c : Dev nD) (t : Fin cfg0.N) :
    (dat0 (F := Ideal) V c).flushed 2 t = ((cfg0.win 2).blk t).view.read (Elt Ideal) (G0 V c) := by
  show (cfg0.win 2).cut (grid0.coords t) ((dat0 (F := Ideal) V c).after 2 t) = _
  rw [after0_2]
  unfold out0_2
  rw [View.canon_unit_zero hz]
  simp only [View.ld_unit_zero (S := S1024x256) hz, View.ld_unit_zero (S := S256x256) hz]
  obtain ⟨-, -, -, -, e4, e5⟩ := idx_facts0 t
  funext j
  obtain ⟨p, q, rfl⟩ : ∃ (p : Fin 1024) (q : Fin 256), j = ix2 p q := ⟨j 0, j 1, eq_ix2 j⟩
  show k0_pay1 (F := Ideal) (iblk0 V c 0 t) (iblk0 V c 1 t) (ix2 p q) = G0 V c (((cfg0.win 2).blk t).view.emb (ix2 p q))
  have ht : t.val < 8 := t.isLt
  have hr : 1024 * t.val + p.val < 8192 := by have := p.isLt; omega
  have hemb : ((cfg0.win 2).blk t).view.emb (ix2 p q) = (ix2 (⟨1024 * t.val + p.val, hr⟩ : Fin 8192) q : S8192x256.Idx) := by
    funext a
    apply Fin.ext
    match a with
    | ⟨0, _⟩ => show win0_2.index t (0 : Fin 2) * 1024 + 1 * p.val = 1024 * t.val + p.val; rw [e4]; omega
    | ⟨1, _⟩ => show win0_2.index t (1 : Fin 2) * 256 + 1 * q.val = q.val; rw [e5]; omega
  rw [hemb, pay0_apply]
  show _ = Cert.Attn.proj (V c main_arg0) (V c main_arg2) ⟨1024 * t.val + p.val, hr⟩ q
  unfold Cert.Attn.proj
  refine Finset.sum_congr rfl fun e _ => ?_
  rw [rows0_apply V c t p e ⟨1024 * t.val + p.val, hr⟩ rfl, mat0_apply V c t q e]

/-- An index of the output array lies in point t's block iff each coordinate is in the block's range. -/
theorem mem_blk0 (t : Fin cfg0.N) (i : S8192x256.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_v0).slice (win0_2.rect t)).set ↔ _
  rw [View.set_slice_whole, Rect.mem_set_unit]
  exact Iff.rfl

/-- Row r of the output is written by point r / 1024. -/
theorem cover0 (i : S8192x256.Idx) : ∃ t : Fin cfg0.N, (cfg0.win 2).flush t = true ∧ i ∈ ((cfg0.win 2).blk t).view.set := by
  have hi0 : (i 0).val < 8192 := (i 0).isLt
  have hi1 : (i 1).val < 256 := (i 1).isLt
  have ht : (i 0).val / 1024 < cfg0.N := by show _ < 8; omega
  refine ⟨⟨(i 0).val / 1024, ht⟩, flush0_2 _, ?_⟩
  obtain ⟨-, -, -, -, e4, e5⟩ := idx_facts0 ⟨(i 0).val / 1024, ht⟩
  rw [mem_blk0]
  intro a
  match a with
  | ⟨0, _⟩ =>
    show win0_2.index ⟨(i 0).val / 1024, ht⟩ (0 : Fin 2) * 1024 ≤ (i 0).val ∧ (i 0).val < win0_2.index ⟨(i 0).val / 1024, ht⟩ (0 : Fin 2) * 1024 + 1024
    rw [e4]; show (i 0).val / 1024 * 1024 ≤ (i 0).val ∧ (i 0).val < (i 0).val / 1024 * 1024 + 1024; omega
  | ⟨1, _⟩ =>
    show win0_2.index ⟨(i 0).val / 1024, ht⟩ (1 : Fin 2) * 256 ≤ (i 1).val ∧ (i 1).val < win0_2.index ⟨(i 0).val / 1024, ht⟩ (1 : Fin 2) * 256 + 256
    rw [e5]; omega

/-- After its eight points region 0's output array is the projection of `main_arg0` by `main_arg2`. -/
theorem region0_array (c : Dev nD) :
    (dat0 (F := Ideal) V c).arrAt 2 cfg0.N = fun i => Cert.Attn.proj (V c main_arg0) (V c main_arg2) (i 0) (i 1) :=
  (dat0 (F := Ideal) V c).arrAt_eq_of_cover 2 (G0 V c) (fun t _ => flushed0_eq V c t) cover0

/-! ### Region 1 -/

/-- The index maps of region 1 over its eight points: the row-family window and the output window sit at row block t,
    column block 0; the matrix window never moves. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of point t's block of the row family is row 1024·t + p of the array. -/
theorem rows1_apply (c : Dev nD) (t : Fin cfg1.N) (p : Fin 1024) (e : Fin 256) (r : Fin 8192)
    (hr : r.val = 1024 * t.val + p.val) :
    (iblk1 V c 0 t : Vec Ideal S1024x256 .f32) (ix2 p e) = (V c main_arg1 : S8192x256.Idx → EReal) (ix2 r e) := by
  obtain ⟨e0, e1, -, -, -, -⟩ := idx_facts1 t
  unfold iblk1
  rw [View.read_apply]
  show (V c main_arg1 : S8192x256.Idx → EReal) _ = _
  refine congrArg _ ?_
  funext a
  apply Fin.ext
  match a with
  | ⟨0, _⟩ => show win1_0.index t (0 : Fin 2) * 1024 + 1 * p.val = r.val; rw [e0, hr]; omega
  | ⟨1, _⟩ => show win1_0.index t (1 : Fin 2) * 256 + 1 * e.val = e.val; rw [e1]; omega

/-- Every point's block of the matrix is the whole matrix. -/
theorem mat1_apply (c : Dev nD) (t : Fin cfg1.N) (q : Fin 256) (e : Fin 256) :
    (iblk1 V c 1 t : Vec Ideal S256x256 .f32) (ix2 q e) = (V c main_arg3 : S256x256.Idx → EReal) (ix2 q e) := by
  obtain ⟨-, -, e2, e3, -, -⟩ := idx_facts1 t
  unfold iblk1
  rw [View.read_apply]
  show (V c main_arg3 : S256x256.Idx → EReal) _ = _
  refine congrArg _ ?_
  funext a
  apply Fin.ext
  match a with
  | ⟨0, _⟩ => show win1_1.index t (0 : Fin 2) * 256 + 1 * q.val = q.val; rw [e2]; omega
  | ⟨1, _⟩ => show win1_1.index t (1 : Fin 2) * 256 + 1 * e.val = e.val; rw [e3]; omega

/-- The projection of the row family `main_arg1` by the matrix `main_arg3`, as an array. -/
abbrev G1 (c : Dev nD) : S8192x256.Idx → EReal :=
  fun i => Cert.Attn.proj (V c main_arg1) (V c main_arg3) (i 0) (i 1)

/-- What point t writes back is block t of the projection. -/
theorem flushed1_eq (c : Dev nD) (t : Fin cfg1.N) :
    (dat1 (F := Ideal) V c).flushed 2 t = ((cfg1.win 2).blk t).view.read (Elt Ideal) (G1 V c) := by
  show (cfg1.win 2).cut (grid1.coords t) ((dat1 (F := Ideal) V c).after 2 t) = _
  rw [after1_2]
  unfold out1_2
  rw [View.canon_unit_zero hz]
  simp only [View.ld_unit_zero (S := S1024x256) hz, View.ld_unit_zero (S := S256x256) hz]
  obtain ⟨-, -, -, -, e4, e5⟩ := idx_facts1 t
  funext j
  obtain ⟨p, q, rfl⟩ : ∃ (p : Fin 1024) (q : Fin 256), j = ix2 p q := ⟨j 0, j 1, eq_ix2 j⟩
  show k1_pay1 (F := Ideal) (iblk1 V c 0 t) (iblk1 V c 1 t) (ix2 p q) = G1 V c (((cfg1.win 2).blk t).view.emb (ix2 p q))
  have ht : t.val < 8 := t.isLt
  have hr : 1024 * t.val + p.val < 8192 := by have := p.isLt; omega
  have hemb : ((cfg1.win 2).blk t).view.emb (ix2 p q) = (ix2 (⟨1024 * t.val + p.val, hr⟩ : Fin 8192) q : S8192x256.Idx) := by
    funext a
    apply Fin.ext
    match a with
    | ⟨0, _⟩ => show win1_2.index t (0 : Fin 2) * 1024 + 1 * p.val = 1024 * t.val + p.val; rw [e4]; omega
    | ⟨1, _⟩ => show win1_2.index t (1 : Fin 2) * 256 + 1 * q.val = q.val; rw [e5]; omega
  rw [hemb, pay1_apply]
  show _ = Cert.Attn.proj (V c main_arg1) (V c main_arg3) ⟨1024 * t.val + p.val, hr⟩ q
  unfold Cert.Attn.proj
  refine Finset.sum_congr rfl fun e _ => ?_
  rw [rows1_apply V c t p e ⟨1024 * t.val + p.val, hr⟩ rfl, mat1_apply V c t q e]

/-- An index of the output array lies in point t's block iff each coordinate is in the block's range. -/
theorem mem_blk1 (t : Fin cfg1.N) (i : S8192x256.Idx) :
    i ∈ ((cfg1.win 2).blk t).view.set ↔ ∀ a : Fin 2, win1_2.index t a * S1024x256.size a ≤ (i a).val ∧ (i a).val < win1_2.index t a * S1024x256.size a + S1024x256.size a := by
  show i ∈ ((View.whole main_v1).slice (win1_2.rect t)).set ↔ _
  rw [View.set_slice_whole, Rect.mem_set_unit]
  exact Iff.rfl

/-- Row r of the output is written by point r / 1024. -/
theorem cover1 (i : S8192x256.Idx) : ∃ t : Fin cfg1.N, (cfg1.win 2).flush t = true ∧ i ∈ ((cfg1.win 2).blk t).view.set := by
  have hi0 : (i 0).val < 8192 := (i 0).isLt
  have hi1 : (i 1).val < 256 := (i 1).isLt
  have ht : (i 0).val / 1024 < cfg1.N := by show _ < 8; omega
  refine ⟨⟨(i 0).val / 1024, ht⟩, flush1_2 _, ?_⟩
  obtain ⟨-, -, -, -, e4, e5⟩ := idx_facts1 ⟨(i 0).val / 1024, ht⟩
  rw [mem_blk1]
  intro a
  match a with
  | ⟨0, _⟩ =>
    show win1_2.index ⟨(i 0).val / 1024, ht⟩ (0 : Fin 2) * 1024 ≤ (i 0).val ∧ (i 0).val < win1_2.index ⟨(i 0).val / 1024, ht⟩ (0 : Fin 2) * 1024 + 1024
    rw [e4]; show (i 0).val / 1024 * 1024 ≤ (i 0).val ∧ (i 0).val < (i 0).val / 1024 * 1024 + 1024; omega
  | ⟨1, _⟩ =>
    show win1_2.index ⟨(i 0).val / 1024, ht⟩ (1 : Fin 2) * 256 ≤ (i 1).val ∧ (i 1).val < win1_2.index ⟨(i 0).val / 1024, ht⟩ (1 : Fin 2) * 256 + 256
    rw [e5]; omega

/-- After its eight points region 1's output array is the projection of `main_arg1` by `main_arg3`. -/
theorem region1_array (c : Dev nD) :
    (dat1 (F := Ideal) V c).arrAt 2 cfg1.N = fun i => Cert.Attn.proj (V c main_arg1) (V c main_arg3) (i 0) (i 1) :=
  (dat1 (F := Ideal) V c).arrAt_eq_of_cover 2 (G1 V c) (fun t _ => flushed1_eq V c t) cover1

end Regions

end Cert.KernelIdeal.ProjValue

end
-- ==== Proof.EntryValue.lean ====
/-
  What the attention region finds when it is entered, in terms of the memory the program was launched with.

  Before the attention region the program has run the two projection regions and three host operations. The first
  projection region writes the query array, the second the key array; neither is written again, and the arguments are
  never written at all. So at the attention region's entry the query array is the projection of the first row family
  by the first matrix, the key array the projection of the second row family by the second matrix, both of the
  arguments as launched. The host operations change the float format of the two row families (the identity over the
  extended reals) and put the results side by side along the columns: columns 0 … 255 of the value array are the
  first row family, columns 256 … 511 the second.
-/
import proofs.«145131_j73126113182197_2_alg».proof.Proof.Gen.KernelIdeal.Frame
import proofs.«145131_j73126113182197_2_alg».proof.Proof.ProjRegions
import proofs.«145131_j73126113182197_2_alg».proof.Proof.Spec
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.EntryValue

open Cert.KernelIdeal Cert.KernelIdeal.Gen Idealize.ShloMosaic.StableHlo

variable (m : (ℓ : Loc nD τ sig) → Buf (Elt Ideal) ℓ) (ρ : Dev nD → PrngReg) (c : Dev nD)

/-! ## The arguments are never written -/

/-- The first row family after the first projection region: an input of that region, so as launched. -/
theorem W1_main_arg0 : W1 m ρ c (Proc.devRef .tc main_arg0) = m ((c : Thread nD τ).loc main_arg0) :=
  (W1_arr m ρ c 0).trans (((dat0 (V0 m ρ) c).arrAt_in 0 rfl _).trans (A_eq0 (V0 m ρ) c 0))

/-- The first matrix after the first projection region: an input of that region, so as launched. -/
theorem W1_main_arg2 : W1 m ρ c (Proc.devRef .tc main_arg2) = m ((c : Thread nD τ).loc main_arg2) :=
  (W1_arr m ρ c 1).trans (((dat0 (V0 m ρ) c).arrAt_in 1 rfl _).trans (A_eq0 (V0 m ρ) c 1))

/-- The second row family after the first projection region: not one of its arrays, so as launched. -/
theorem W1_main_arg1 : W1 m ρ c (Proc.devRef .tc main_arg1) = m ((c : Thread nD τ).loc main_arg1) :=
  W1_of_ne m ρ c main_arg1 (by decide)

/-- The second matrix after the first projection region: not one of its arrays, so as launched. -/
theorem W1_main_arg3 : W1 m ρ c (Proc.devRef .tc main_arg3) = m ((c : Thread nD τ).loc main_arg3) :=
  W1_of_ne m ρ c main_arg3 (by decide)

/-- The first row family after both projection regions. -/
theorem W2_main_arg0 : W2 m ρ c (Proc.devRef .tc main_arg0) = m ((c : Thread nD τ).loc main_arg0) :=
  (W2_of_ne m ρ c main_arg0 (by decide)).trans (W1_main_arg0 m ρ c)

/-- The second row family after both projection regions: an input of the second. -/
theorem W2_main_arg1 : W2 m ρ c (Proc.devRef .tc main_arg1) = m ((c : Thread nD τ).loc main_arg1) :=
  ((W2_arr m ρ c 0).trans (((dat1 (V1 m ρ) c).arrAt_in 0 rfl _).trans (A_eq1 (V1 m ρ) c 0))).trans (W1_main_arg1 m ρ c)

/-! ## The query and key arrays -/

/-- The host operations between the projection regions and the attention region do not write the query array. -/
theorem W3_main_v0 : W3 m ρ c (Proc.devRef .tc main_v0) = W2 m ρ c (Proc.devRef .tc main_v0) :=
  StableHlo.after_of_forall_not_mem (b := Proc.devRef .tc main_v0) _ _ (List.forall_iff_forall_mem.mp (by
    simp only [hostOps2, List.Forall, StableHlo.unary_writes, StableHlo.binary_writes, Finset.mem_singleton]
    repeat' apply And.intro
    all_goals exact StableHlo.devRef_ne_of_ne (by decide)))

/-- Nor the key array. -/
theorem W3_main_v1 : W3 m ρ c (Proc.devRef .tc main_v1) = W2 m ρ c (Proc.devRef .tc main_v1) :=
  StableHlo.after_of_forall_not_mem (b := Proc.devRef .tc main_v1) _ _ (List.forall_iff_forall_mem.mp (by
    simp only [hostOps2, List.Forall, StableHlo.unary_writes, StableHlo.binary_writes, Finset.mem_singleton]
    repeat' apply And.intro
    all_goals exact StableHlo.devRef_ne_of_ne (by decide)))

/-- At the attention region's entry the query array is the projection of the first row family by the first matrix,
    both as launched. -/
theorem queries_entry :
    (V3 m ρ c main_v0 : S8192x256.Idx → EReal) = fun i => Cert.Attn.proj (m ((c : Thread nD τ).loc main_arg0)) (m ((c : Thread nD τ).loc main_arg2)) (i 0) (i 1) := by
  show W3 m ρ c (Proc.devRef .tc main_v0) = _
  rw [W3_main_v0, W2_of_ne m ρ c main_v0 (by decide)]
  exact (W1_arr m ρ c 2).trans (ProjValue.region0_array (V0 m ρ) c)

/-- At the attention region's entry the key array is the projection of the second row family by the second matrix,
    both as launched. -/
theorem keys_entry :
    (V3 m ρ c main_v1 : S8192x256.Idx → EReal) = fun i => Cert.Attn.proj (m ((c : Thread nD τ).loc main_arg1)) (m ((c : Thread nD τ).loc main_arg3)) (i 0) (i 1) := by
  show W3 m ρ c (Proc.devRef .tc main_v1) = _
  rw [W3_main_v1]
  refine ((W2_arr m ρ c 2).trans (ProjValue.region1_array (V1 m ρ) c)).trans ?_
  show (fun i : S8192x256.Idx => Cert.Attn.proj (W1 m ρ c (Proc.devRef .tc main_arg1)) (W1 m ρ c (Proc.devRef .tc main_arg3)) (i 0) (i 1)) = _
  rw [W1_main_arg1, W1_main_arg3]
  rfl

/-! ## The value array -/

/-- At the attention region's entry the value array is the two row families, as launched, side by side. -/
theorem values_entry :
    (V3 m ρ c main_v4 : S8192x512.Idx → EReal)
      = concatenate S8192x512 1 [⟨S8192x256, (m ((c : Thread nD τ).loc main_arg0) : S8192x256.Idx → EReal)⟩,
          ⟨S8192x256, (m ((c : Thread nD τ).loc main_arg1) : S8192x256.Idx → EReal)⟩] Facts₀.concatenates_S8192x256_S8192x256_S8192x512_d1 := by
  show StableHlo.after hostOps2 (W2 m ρ c) (Proc.devRef .tc main_v4) = _
  after_results
  rw [W2_main_arg0, W2_main_arg1]
  rfl

/-- Column k < 256 of the value array is column k of the first row family. -/
theorem values_entry_left_of (j : Fin 8192) (e : Fin 256) (k : Fin 512) (hk : k.val = e.val) :
    (V3 m ρ c main_v4 : S8192x512.Idx → EReal) (ix2 j k) = (m ((c : Thread nD τ).loc main_arg0) : S8192x256.Idx → EReal) (ix2 j e) := by
  rw [values_entry]
  refine concatenate_pair_apply_left (t := S8192x512) (s₁ := S8192x256) (s₂ := S8192x256) (1 : Fin S8192x512.rank) _ _ _ (ix2 j k) rfl (ix2 j e) fun b => ?_
  match b with
  | ⟨0, _⟩ => rfl
  | ⟨1, _⟩ => exact hk.symm

/-- Column 256 + k of the value array is column k of the second row family. -/
theorem values_entry_right_of (j : Fin 8192) (e : Fin 256) (k : Fin 512) (hk : k.val = 256 + e.val) :
    (V3 m ρ c main_v4 : S8192x512.Idx → EReal) (ix2 j k) = (m ((c : Thread nD τ).loc main_arg1) : S8192x256.Idx → EReal) (ix2 j e) := by
  rw [values_entry]
  refine concatenate_pair_apply_right (t := S8192x512) (s₁ := S8192x256) (s₂ := S8192x256) (1 : Fin S8192x512.rank) _ _ _ (ix2 j k) rfl rfl (ix2 j e) (fun b hb => ?_) ?_
  · match b with
    | ⟨0, _⟩ => rfl
    | ⟨1, _⟩ => exact absurd rfl hb
  · show e.val + 256 = k.val
    omega

/-- The left half, at the literal column. -/
theorem values_entry_left (j : Fin 8192) (e : Fin 256) :
    (V3 m ρ c main_v4 : S8192x512.Idx → EReal) (ix2 j (⟨e.val, by have := e.isLt; omega⟩ : Fin 512)) = (m ((c : Thread nD τ).loc main_arg0) : S8192x256.Idx → EReal) (ix2 j e) :=
  values_entry_left_of m ρ c j e _ rfl

/-- The right half, at the literal column. -/
theorem values_entry_right (j : Fin 8192) (e : Fin 256) :
    (V3 m ρ c main_v4 : S8192x512.Idx → EReal) (ix2 j (⟨256 + e.val, by have := e.isLt; omega⟩ : Fin 512)) = (m ((c : Thread nD τ).loc main_arg1) : S8192x256.Idx → EReal) (ix2 j e) :=
  values_entry_right_of m ρ c j e _ rfl

end Cert.KernelIdeal.EntryValue

end
-- ==== Proof.KernelValue.lean ====
/-
  The idealized kernel's two results from the launch memory.

  When the four argument arrays hold real numbers, the attention region finds real queries and keys (the projections of
  img by wq and of text by wk, left by the two projection regions) and real values (img and text side by side, left by
  the host's concatenation), so its two result arrays are, at row r and column e, the closed form of row r's real
  scores against column e of img and of text.
-/
import proofs.«145131_j73126113182197_2_alg».proof.Proof.AttnValue
import proofs.«145131_j73126113182197_2_alg».proof.Proof.EntryValue

set_option maxRecDepth 16384

noncomputable section

open Idealize.ShloMosaic Idealize.ShloMosaic.TcCoe Idealize.ShloMosaic.ValueIdx Idealize.SL.Sem Finset

namespace Cert.KernelIdeal.KernelValue

open Cert.KernelIdeal Cert.KernelIdeal.Gen Cert.KernelIdeal.AttnValue Cert.KernelIdeal.EntryValue Cert.Attn.Algebra

variable (m : (ℓ : Loc nD τ sig) → Buf (Elt Ideal) ℓ) (ρ : Dev nD → PrngReg) (c : Dev nD)
variable (imgR textR : Fin 8192 → Fin 256 → ℝ) (wqR wkR : Fin 256 → Fin 256 → ℝ)

/-- The real values: img's columns, then text's. -/
def valR (j : Fin 8192) (e : Fin 512) : ℝ :=
  if h : e.val < 256 then imgR j ⟨e.val, h⟩ else textR j ⟨e.val - 256, by have := e.isLt; omega⟩

theorem valR_left (j : Fin 8192) (e : Fin 256) : valR imgR textR j (colL e) = imgR j e := by
  unfold valR
  rw [dif_pos (show (colL e).val < 256 from e.isLt)]

theorem valR_right (j : Fin 8192) (e : Fin 256) : valR imgR textR j (colR e) = textR j e := by
  unfold valR
  rw [dif_neg (show ¬(colR e).val < 256 from by show ¬(256 + e.val < 256); omega)]
  exact congrArg (textR j) (Fin.ext (by show 256 + e.val - 256 = e.val; omega))

variable (h0 : ∀ r e, (m ((c : Thread nD τ).loc main_arg0) : S8192x256.Idx → EReal) (ix2 r e) = ((imgR r e : ℝ) : EReal))
  (h1 : ∀ r e, (m ((c : Thread nD τ).loc main_arg1) : S8192x256.Idx → EReal) (ix2 r e) = ((textR r e : ℝ) : EReal))
  (h2 : ∀ d e, (m ((c : Thread nD τ).loc main_arg2) : S256x256.Idx → EReal) (ix2 d e) = ((wqR d e : ℝ) : EReal))
  (h3 : ∀ d e, (m ((c : Thread nD τ).loc main_arg3) : S256x256.Idx → EReal) (ix2 d e) = ((wkR d e : ℝ) : EReal))

include h0 h2 in
theorem queries_real (R : Fin 8192) (d : Fin 256) :
    (V3 m ρ c main_v0 : S8192x256.Idx → EReal) (ix2 R d) = ((projR imgR wqR R d : ℝ) : EReal) :=
  (congrFun (queries_entry m ρ c) (ix2 R d)).trans (proj_coe _ _ imgR wqR h0 h2 R d)

include h1 h3 in
theorem keys_real (j : Fin 8192) (d : Fin 256) :
    (V3 m ρ c main_v1 : S8192x256.Idx → EReal) (ix2 j d) = ((projR textR wkR j d : ℝ) : EReal) :=
  (congrFun (keys_entry m ρ c) (ix2 j d)).trans (proj_coe _ _ textR wkR h1 h3 j d)

include h0 h1 in
theorem values_real (j : Fin 8192) (e : Fin 512) :
    (V3 m ρ c main_v4 : S8192x512.Idx → EReal) (ix2 j e) = ((valR imgR textR j e : ℝ) : EReal) := by
  unfold valR
  by_cases h : e.val < 256
  · rw [dif_pos h]
    exact (values_entry_left_of m ρ c j ⟨e.val, h⟩ e rfl).trans (h0 j _)
  · rw [dif_neg h]
    exact (values_entry_right_of m ρ c j ⟨e.val - 256, by have := e.isLt; omega⟩ e (by show e.val = 256 + (e.val - 256); omega)).trans (h1 j _)

include h0 h1 h2 h3 in
/-- The first result: attention weights applied to img. -/
theorem result_img : (dat2 (F := Ideal) (V3 m ρ) c).arrAt 3 cfg2.N
    = fun i => ((outR imgR textR wqR wkR imgR (i 0) (i 1) : ℝ) : EReal) := by
  rw [array3 (V3 m ρ) c (projR imgR wqR) (projR textR wkR) (valR imgR textR)
    (queries_real m ρ c imgR wqR h0 h2) (keys_real m ρ c textR wkR h1 h3) (values_real m ρ c imgR textR h0 h1)]
  have hl : ∀ e : Fin 256, (fun k => valR imgR textR k (colL e)) = fun k => imgR k e :=
    fun e => funext fun k => valR_left imgR textR k e
  funext i
  exact congrArg (fun v : Fin 8192 → ℝ => ((attnReal (scoreR (projR imgR wqR) (projR textR wkR) (i 0)) v : ℝ) : EReal)) (hl (i 1))

include h0 h1 h2 h3 in
/-- The second result: attention weights applied to text. -/
theorem result_text : (dat2 (F := Ideal) (V3 m ρ) c).arrAt 4 cfg2.N
    = fun i => ((outR imgR textR wqR wkR textR (i 0) (i 1) : ℝ) : EReal) := by
  rw [array4 (V3 m ρ) c (projR imgR wqR) (projR textR wkR) (valR imgR textR)
    (queries_real m ρ c imgR wqR h0 h2) (keys_real m ρ c textR wkR h1 h3) (values_real m ρ c imgR textR h0 h1)]
  have hr : ∀ e : Fin 256, (fun k => valR imgR textR k (colR e)) = fun k => textR k e :=
    fun e => funext fun k => valR_right imgR textR k e
  funext i
  exact congrArg (fun v : Fin 8192 → ℝ => ((attnReal (scoreR (projR imgR wqR) (projR textR wkR) (i 0)) v : ℝ) : EReal)) (hr (i 1))

end Cert.KernelIdeal.KernelValue

end
-- ==== Proof.RefForm.lean ====
/-
  The reference program, read as the specification's all-at-once softmax attention.

  The reference forms Q = img · Wqᵀ and K = text · Wkᵀ, the scores Q · Kᵀ, subtracts from every row of scores its
  maximum (taken from −∞ and once more against −∞), exponentiates, divides by the row's sum (taken from 0), scales
  by 1/√256 and applies the resulting weights to img and to text. Each of these arrays is read here at one index
  with symbolic coordinates: entry (r, d) of a projection is the inner product of row r of the data with row d of
  the square matrix; entry (r, j) of the scores is the inner product of query r and key j; the maximum and the sum
  of row r run over the 8192 column coordinates; entry (r, j) of the weights depends on row r of the scores alone;
  and entry (r, d) of a result is the sum over j of weight (r, j) times entry (j, d) of the values. No law of
  arithmetic is used: both sides are the same expression, formed in the same order.
-/
import proofs.«145131_j73126113182197_2_alg».proof.Proof.Gen.ReferenceIdeal.Read
import proofs.«145131_j73126113182197_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

variable (a0 a1 : (⟨S8192x256, .f32⟩ : BufTy).Contents (Elt Ideal)) (a2 a3 : (⟨S256x256, .f32⟩ : BufTy).Contents (Elt Ideal))

/-- Entry (r, d) of img · Wqᵀ is the inner product of row r of img and row d of Wq. -/
theorem queries_at (r : Fin 8192) (d : Fin 256) :
    val_main_v3 (F := Ideal) a0 a2 (ix2 r d) = Cert.Attn.proj a0 a2 r d := by
  rw [val_main_v3_apply]
  unfold Cert.Attn.proj
  refine Finset.sum_congr rfl fun e _ => ?_
  rw [val_main_v2_apply]
  have e1 : lidx_main_v3 (ix2 r d) e = ix2 r e :=
    funext fun a => Fin.ext (by match a with | ⟨0, _⟩ => rfl | ⟨1, _⟩ => rfl)
  have e2 : idx_main_v2 (ridx_main_v3 (ix2 r d) e) = ix2 d e :=
    funext fun a => Fin.ext (by match a with | ⟨0, _⟩ => rfl | ⟨1, _⟩ => rfl)
  rw [e1, e2]

/-- Entry (j, d) of text · Wkᵀ is the inner product of row j of text and row d of Wk. -/
theorem keys_at (j : Fin 8192) (d : Fin 256) :
    val_main_v5 (F := Ideal) a1 a3 (ix2 j d) = Cert.Attn.proj a1 a3 j d := by
  rw [val_main_v5_apply]
  unfold Cert.Attn.proj
  refine Finset.sum_congr rfl fun e _ => ?_
  rw [val_main_v4_apply]
  have e1 : lidx_main_v5 (ix2 j d) e = ix2 j e :=
    funext fun a => Fin.ext (by match a with | ⟨0, _⟩ => rfl | ⟨1, _⟩ => rfl)
  have e2 : idx_main_v4 (ridx_main_v5 (ix2 j d) e) = ix2 d e :=
    funext fun a => Fin.ext (by match a with | ⟨0, _⟩ => rfl | ⟨1, _⟩ => rfl)
  rw [e1, e2]

/-- Entry (r, j) of Q · Kᵀ is the score of query row r against key row j. -/
theorem scores_at (r j : Fin 8192) :
    val_main_v7 (F := Ideal) a0 a1 a2 a3 (ix2 r j) = Cert.Attn.scores a0 a1 a2 a3 r j := by
  rw [val_main_v7_apply]
  unfold Cert.Attn.scores Cert.Attn.score
  refine Finset.sum_congr rfl fun d _ => ?_
  rw [val_main_v6_apply]
  have e1 : lidx_main_v7 (ix2 r j) d = ix2 r d :=
    funext fun a => Fin.ext (by match a with | ⟨0, _⟩ => rfl | ⟨1, _⟩ => rfl)
  have e2 : idx_main_v6 (ridx_main_v7 (ix2 r j) d) = ix2 j d :=
    funext fun a => Fin.ext (by match a with | ⟨0, _⟩ => rfl | ⟨1, _⟩ => rfl)
  rw [e1, e2, queries_at, keys_at]

/-- Row index r with column coordinate k put back on the reduced axis is the index (r, k). -/
theorem lift_row (h : S8192x8192.Reduces [1] S8192) (r : Fin 8192) (k : Fin (S8192x8192.size 1)) :
    h.lift (ix1 r) k = ix2 r (⟨k.val, k.isLt⟩ : Fin 8192) := by
  funext c
  apply Fin.ext
  match c with
  | ⟨0, _⟩ => rfl
  | ⟨1, _⟩ => rfl

/-- The maximum over the columns of row r of the scores, from −∞. -/
theorem colmax_at (r : Fin 8192) :
    val_main_v8 (F := Ideal) a0 a1 a2 a3 (ix1 r)
      = (Finset.univ : Finset (Fin 8192)).fold max Cert.Attn.negInf (Cert.Attn.scores a0 a1 a2 a3 r) := by
  have hR : S8192x8192.Reduces [1] S8192 := by decide
  unfold val_main_v8
  refine (Host.reduce_eq_fold_single (FloatOps.maximumf (F := Ideal) (φ := .f32)) (val_main_v7 (F := Ideal) a0 a1 a2 a3)
    (val_main_cst_1 (F := Ideal)) reducesTo_S8192x8192_S8192_d1 hR h_S_ (ix1 r)).trans ?_
  have hf : (val_main_v7 (F := Ideal) a0 a1 a2 a3 ∘ hR.lift (ix1 r))
      = fun k : Fin 8192 => Cert.Attn.scores a0 a1 a2 a3 r k := funext fun k => by
    show val_main_v7 (F := Ideal) a0 a1 a2 a3 (hR.lift (ix1 r) k) = _
    rw [lift_row hR r k]
    exact scores_at a0 a1 a2 a3 r _
  rw [hf]
  rfl

/-- The row maximum the reference subtracts: −∞ against the maximum of row r from −∞. -/
theorem rowmax_at (r : Fin 8192) :
    val_main_v10 (F := Ideal) a0 a1 a2 a3 (ix1 r) = Cert.Attn.rowMax (Cert.Attn.scores a0 a1 a2 a3 r) := by
  rw [val_main_v10_apply, val_main_v9_apply, colmax_at]
  rfl

/-- Entry (r, j) of the exponentials: exp of the score less the maximum of its row. -/
theorem exp_at (r j : Fin 8192) :
    val_main_v14 (F := Ideal) a0 a1 a2 a3 (ix2 r j)
      = Ideal.exp (Cert.Attn.scores a0 a1 a2 a3 r j - Cert.Attn.rowMax (Cert.Attn.scores a0 a1 a2 a3 r)) := by
  rw [val_main_v14_apply, val_main_v13_apply, val_main_v12_apply, val_main_v11_apply, scores_at]
  have e : idx_main_v11 (idx_main_v12 (ix2 r j)) = ix1 r :=
    funext fun a => Fin.ext (by match a with | ⟨0, _⟩ => rfl)
  rw [e, rowmax_at]
  rfl

/-- The sum of row r of the exponentials, from 0. -/
theorem expsum_at (r : Fin 8192) :
    val_main_v15 (F := Ideal) a0 a1 a2 a3 (ix1 r)
      = Cert.Attn.zero + ∑ j : Fin 8192,
          Ideal.exp (Cert.Attn.scores a0 a1 a2 a3 r j - Cert.Attn.rowMax (Cert.Attn.scores a0 a1 a2 a3 r)) := by
  rw [val_main_v15_apply]
  refine congrArg₂ (· + ·) rfl (Finset.sum_congr rfl fun j _ => ?_)
  have e : idx_main_v15 (ix1 r) j = ix2 r j :=
    funext fun a => Fin.ext (by match a with | ⟨0, _⟩ => rfl | ⟨1, _⟩ => rfl)
  rw [e, exp_at]

/-- Entry (r, j) of the weights: the exponential over the sum of its row, times the scale. -/
theorem weight_at (r j : Fin 8192) :
    val_main_v20 (F := Ideal) a0 a1 a2 a3 (ix2 r j)
      = Ideal.div (Ideal.exp (Cert.Attn.scores a0 a1 a2 a3 r j - Cert.Attn.rowMax (Cert.Attn.scores a0 a1 a2 a3 r)))
          (Cert.Attn.zero + ∑ j' : Fin 8192,
            Ideal.exp (Cert.Attn.scores a0 a1 a2 a3 r j' - Cert.Attn.rowMax (Cert.Attn.scores a0 a1 a2 a3 r)))
        * Cert.Attn.scaleQuot := by
  rw [val_main_v20_apply, val_main_v18_apply, val_main_v17_apply, val_main_v16_apply, val_main_v19_apply, exp_at]
  have e : idx_main_v16 (idx_main_v17 (ix2 r j)) = ix1 r :=
    funext fun a => Fin.ext (by match a with | ⟨0, _⟩ => rfl)
  rw [e, expsum_at]
  rfl

/-- The reference's first result is the all-at-once attention of each row's scores over the columns of img. -/
theorem ref_img :
    val_main_v21 (F := Ideal) a0 a1 a2 a3
      = fun i => Cert.Attn.attnAllAtOnce (Cert.Attn.scores a0 a1 a2 a3 (i 0)) (fun j => a0 (ValueIdx.ix2 j (i 1))) := by
  funext i
  obtain ⟨r, d, rfl⟩ : ∃ (r : Fin 8192) (d : Fin 256), i = ix2 r d := ⟨i 0, i 1, eq_ix2 i⟩
  rw [val_main_v21_apply]
  unfold Cert.Attn.attnAllAtOnce
  refine Finset.sum_congr rfl fun j _ => ?_
  have e1 : lidx_main_v21 (ix2 r d) j = ix2 r j :=
    funext fun a => Fin.ext (by match a with | ⟨0, _⟩ => rfl | ⟨1, _⟩ => rfl)
  have e2 : ridx_main_v21 (ix2 r d) j = ix2 j d :=
    funext fun a => Fin.ext (by match a with | ⟨0, _⟩ => rfl | ⟨1, _⟩ => rfl)
  rw [e1, e2, weight_at]

/-- The reference's second result is the all-at-once attention of each row's scores over the columns of text. -/
theorem ref_text :
    val_main_v22 (F := Ideal) a0 a1 a2 a3
      = fun i => Cert.Attn.attnAllAtOnce (Cert.Attn.scores a0 a1 a2 a3 (i 0)) (fun j => a1 (ValueIdx.ix2 j (i 1))) := by
  funext i
  obtain ⟨r, d, rfl⟩ : ∃ (r : Fin 8192) (d : Fin 256), i = ix2 r d := ⟨i 0, i 1, eq_ix2 i⟩
  rw [val_main_v22_apply]
  unfold Cert.Attn.attnAllAtOnce
  refine Finset.sum_congr rfl fun j _ => ?_
  have e1 : lidx_main_v22 (ix2 r d) j = ix2 r j :=
    funext fun a => Fin.ext (by match a with | ⟨0, _⟩ => rfl | ⟨1, _⟩ => rfl)
  have e2 : ridx_main_v22 (ix2 r d) j = ix2 j d :=
    funext fun a => Fin.ext (by match a with | ⟨0, _⟩ => rfl | ⟨1, _⟩ => rfl)
  rw [e1, e2, weight_at]

end Cert.ReferenceIdeal.RefValue

end
-- ==== Proof.Finite.lean ====
/-
  Under the certificate's precondition every entry of the four argument arrays is a real number.

  The precondition is the conjunction of four tests, one per array: every entry x has |x| < +∞, where |x| is
  max x (−x). Over the extended reals that test is the complement of "x is an infinity": it fails at x = ⊤ and,
  since −⊥ = ⊤, at x = ⊥ (the value that stands for a NaN as well), so an x that passes is the image of a real.
  A conjunction of one-bit words is 1 exactly when every conjunct is, and an "all" over an array that is 1 had a
  1 at every index.
-/
import proofs.«145131_j73126113182197_2_alg».proof.Defs
import Idealize.ShloMosaic.Lib.ReduceAll
import Idealize.ShloMosaic.Lib.ValueIdx
import Idealize.ShloMosaic.Lib.KernelVsHost

noncomputable section

namespace Cert.KernelIdeal.Finite

open Idealize.ShloMosaic Idealize.SL.Sem Idealize.ShloMosaic.ValueIdx

/-- The scalar shape has one index. -/
instance : Subsingleton Cert.Pre_finite_inputs.S_.Idx := ⟨fun a b => funext fun d => d.elim0⟩

/-- An extended real whose absolute value is below +∞ is a real. -/
theorem real_of_abs_lt_inf (x b : EReal) (hb : b = Ideal.ofBits .f32 0x7F800000#32)
    (h : FloatOps.cmpf (F := Ideal) (φ := .f32) .olt (FloatOps.hostAbsf (F := Ideal) (φ := .f32) x) b = 1#1) :
    ∃ r : ℝ, x = (r : EReal) := by
  subst hb
  -- the test |x| < +∞ is the complement of the one-bit word "x = ⊤ or x = ⊥"
  have hw : IntOp.xori (BitVec.ofBool (decide (x = ⊤ ∨ x = ⊥))) 1#1 = 1#1 :=
    (Ideal.xori_weird_eq_hostAbsf_olt_inf x).trans h
  have hx : ¬ (x = ⊤ ∨ x = ⊥) := by
    intro hc
    rw [decide_eq_true hc] at hw
    exact absurd hw (by decide)
  induction x using EReal.rec with
  | bot => exact absurd (Or.inr rfl) hx
  | coe r => exact ⟨r, rfl⟩
  | top => exact absurd (Or.inl rfl) hx

/-- An array all of whose entries pass the test |x| < +∞ has real entries. -/
theorem all_real {s : Shape} {axes : List (Fin s.rank)} (x b : FVec Ideal s .f32)
    (hb : ∀ i, b i = Ideal.ofBits .f32 0x7F800000#32) (init : IVec Cert.Pre_finite_inputs.S_ 1)
    (hr : s.ReducesTo axes Cert.Pre_finite_inputs.S_) (hu : 0 < Cert.Pre_finite_inputs.S_.numel)
    (e : Host.reduce IntOp.andi (cmpf .olt (Host.absf x) b) init hr hu ix0 = 1#1) (i : s.Idx) :
    ∃ r : ℝ, x i = (r : EReal) :=
  real_of_abs_lt_inf (x i) (b i) (hb i) (Host.reduce_andi_all _ init hr hu ix0 e i)

/-- The precondition's function, decoded: if it answers 1 the four arrays have real entries. -/
theorem fn_real [Cert.Pre_finite_inputs.Facts]
    (x0 x1 : FVec Ideal Cert.Pre_finite_inputs.S8192x256 .f32) (x2 x3 : FVec Ideal Cert.Pre_finite_inputs.S256x256 .f32)
    (h : Cert.Pre_finite_inputs.fn (F := Ideal) x0 x1 x2 x3 = fun _ => 1#1) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  have e := congrFun h ix0
  dsimp only [Cert.Pre_finite_inputs.fn, Cert.Pre_finite_inputs.fn_part1] at e
  change IntOp.andi (IntOp.andi (IntOp.andi _ _) _) _ = 1#1 at e
  obtain ⟨h012, h3⟩ := IntOp.andi_eq_one.1 e
  obtain ⟨h01, h2⟩ := IntOp.andi_eq_one.1 h012
  obtain ⟨h0, h1⟩ := IntOp.andi_eq_one.1 h01
  exact ⟨fun i => all_real x0 _ (fun _ => rfl) _ _ _ h0 i, fun i => all_real x1 _ (fun _ => rfl) _ _ _ h1 i,
    fun i => all_real x2 _ (fun _ => rfl) _ _ _ h2 i, fun i => all_real x3 _ (fun _ => rfl) _ _ _ h3 i⟩

/-- Under the precondition, on every device, each of the four argument arrays holds reals only. -/
theorem args_real [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ x : ℝ, m ((c.tc : Thread Cert.KernelIdeal.nD Cert.KernelIdeal.τ).loc Cert.KernelIdeal.main_arg0) i = (x : EReal))
      ∧ (∀ i, ∃ x : ℝ, m ((c.tc : Thread Cert.KernelIdeal.nD Cert.KernelIdeal.τ).loc Cert.KernelIdeal.main_arg1) i = (x : EReal))
      ∧ (∀ i, ∃ x : ℝ, m ((c.tc : Thread Cert.KernelIdeal.nD Cert.KernelIdeal.τ).loc Cert.KernelIdeal.main_arg2) i = (x : EReal))
      ∧ (∀ i, ∃ x : ℝ, m ((c.tc : Thread Cert.KernelIdeal.nD Cert.KernelIdeal.τ).loc Cert.KernelIdeal.main_arg3) i = (x : EReal)) :=
  fn_real _ _ _ _ (hpre c)

end Cert.KernelIdeal.Finite

end
-- ==== Proof.lean ====
/-
  Softmax attention with fused projections: a three-stage pipelined kernel against the straight-line reference.

  Inputs: img, text (8192 rows of 256 numbers) and wq, wk (256 by 256). With Q = img · wqᵀ and K = text · wkᵀ, row r of
  either result is the softmax over j of the scores Q r · K j, scaled by 1 / sqrt 256 = 1/16, applied to the rows of img
  (first result) and of text (second result).
  The kernel forms Q and K in two projection stages, lays img and text side by side as one value array, and then, for
  each block of 1024 query rows, runs the online softmax over 16 tiles of 512 keys: a running maximum, normaliser and
  weighted sums, closed by (weighted sum) · (1 / normaliser) · 0.0625. The reference forms all scores at once, subtracts
  each row's maximum, exponentiates, divides by the row's sum, multiplies by 1 / sqrt 256 and takes the two products.
  Over the extended reals, when every input is finite, both are the same real number at every entry,
      (Σ_j exp (s j) · v j) / (Σ_j exp (s j)) · (1/16)   for s j = Q r · K j and v the column of img or text:
  on the kernel's side by the online-softmax invariant (the running quantities after n tiles are the partial sums at a
  common shift, and the shift cancels in the quotient) and because sixteen tiles of 512 keys are the 8192 keys; on the
  reference's side because subtracting the maximum cancels in the quotient and sqrt 256 = 16. Finiteness of the inputs
  is what makes every score and every exponential a real number, so that the factor 1 / normaliser and the scale may be
  moved across the sums.
  The three frame statements are the programs' runs with the results dropped; the idealization rewrote nothing.
-/
import proofs.«145131_j73126113182197_2_alg».proof.Defs
import proofs.«145131_j73126113182197_2_alg».proof.Proof.Gen.Kernel
import proofs.«145131_j73126113182197_2_alg».proof.Proof.Gen.Kernel.Skeleton
import proofs.«145131_j73126113182197_2_alg».proof.Proof.Gen.Kernel.Loops
import proofs.«145131_j73126113182197_2_alg».proof.Proof.Gen.Kernel.Launch
import proofs.«145131_j73126113182197_2_alg».proof.Proof.Gen.Kernel.Points
import proofs.«145131_j73126113182197_2_alg».proof.Proof.Gen.Kernel.Frame
import proofs.«145131_j73126113182197_2_alg».proof.Proof.Gen.KernelIdeal
import proofs.«145131_j73126113182197_2_alg».proof.Proof.Gen.KernelIdeal.Skeleton
import proofs.«145131_j73126113182197_2_alg».proof.Proof.Gen.KernelIdeal.Loops
import proofs.«145131_j73126113182197_2_alg».proof.Proof.Gen.KernelIdeal.Launch
import proofs.«145131_j73126113182197_2_alg».proof.Proof.Gen.KernelIdeal.Points
import proofs.«145131_j73126113182197_2_alg».proof.Proof.Gen.KernelIdeal.Frame
import proofs.«145131_j73126113182197_2_alg».proof.Proof.Gen.ReferenceIdeal
import proofs.«145131_j73126113182197_2_alg».proof.Proof.Gen.Pre_finite_inputs
import proofs.«145131_j73126113182197_2_alg».proof.Proof.Gen.ReferenceIdeal.Run
import proofs.«145131_j73126113182197_2_alg».proof.Proof.Gen.ReferenceIdeal.Read
import proofs.«145131_j73126113182197_2_alg».proof.Proof.KernelRun
import proofs.«145131_j73126113182197_2_alg».proof.Proof.KernelValue
import proofs.«145131_j73126113182197_2_alg».proof.Proof.RefForm
import proofs.«145131_j73126113182197_2_alg».proof.Proof.Finite
import Idealize.ShloMosaic.Adequacy
import Idealize.ShloMosaic.Init

set_option maxRecDepth 16384

noncomputable section

namespace Cert.Proof

open Idealize.ShloMosaic Idealize.ShloMosaic.ValueIdx Idealize.SL.Sem Cert.Attn.Algebra

/-- An extended real that is a real number is the inclusion of its real part. -/
theorem coe_toReal_of_real {x : EReal} (h : ∃ r : ℝ, x = (r : EReal)) : x = ((x.toReal : ℝ) : EReal) := by
  obtain ⟨r, rfl⟩ := h
  rw [EReal.toReal_coe]

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · exact fun m ρ _ => (θ_run Cert.ReferenceIdeal.defs _ _).mono (fun _ h c => (h c).2.2) (Cert.ReferenceIdeal.Value.run (F := Ideal) m ρ)
  · intro m ρ m' ρ' hpre hagree
    have hreal := fun c => @Cert.KernelIdeal.Finite.args_real Cert.Pre_finite_inputs.Gen.facts m hpre c
    -- the real parts of the four arrays
    let imgR : Dev Cert.KernelIdeal.nD → Fin 8192 → Fin 256 → ℝ := fun c r e => ((m ((c.tc : Thread Cert.KernelIdeal.nD Cert.KernelIdeal.τ).loc Cert.KernelIdeal.main_arg0) : Cert.KernelIdeal.S8192x256.Idx → EReal) (ix2 r e)).toReal
    let textR : Dev Cert.KernelIdeal.nD → Fin 8192 → Fin 256 → ℝ := fun c r e => ((m ((c.tc : Thread Cert.KernelIdeal.nD Cert.KernelIdeal.τ).loc Cert.KernelIdeal.main_arg1) : Cert.KernelIdeal.S8192x256.Idx → EReal) (ix2 r e)).toReal
    let wqR : Dev Cert.KernelIdeal.nD → Fin 256 → Fin 256 → ℝ := fun c d e => ((m ((c.tc : Thread Cert.KernelIdeal.nD Cert.KernelIdeal.τ).loc Cert.KernelIdeal.main_arg2) : Cert.KernelIdeal.S256x256.Idx → EReal) (ix2 d e)).toReal
    let wkR : Dev Cert.KernelIdeal.nD → Fin 256 → Fin 256 → ℝ := fun c d e => ((m ((c.tc : Thread Cert.KernelIdeal.nD Cert.KernelIdeal.τ).loc Cert.KernelIdeal.main_arg3) : Cert.KernelIdeal.S256x256.Idx → EReal) (ix2 d e)).toReal
    have h0 : ∀ c r e, (m ((c.tc : Thread Cert.KernelIdeal.nD Cert.KernelIdeal.τ).loc Cert.KernelIdeal.main_arg0) : Cert.KernelIdeal.S8192x256.Idx → EReal) (ix2 r e) = ((imgR c r e : ℝ) : EReal) :=
      fun c r e => coe_toReal_of_real ((hreal c).1 (ix2 r e))
    have h1 : ∀ c r e, (m ((c.tc : Thread Cert.KernelIdeal.nD Cert.KernelIdeal.τ).loc Cert.KernelIdeal.main_arg1) : Cert.KernelIdeal.S8192x256.Idx → EReal) (ix2 r e) = ((textR c r e : ℝ) : EReal) :=
      fun c r e => coe_toReal_of_real ((hreal c).2.1 (ix2 r e))
    have h2 : ∀ c d e, (m ((c.tc : Thread Cert.KernelIdeal.nD Cert.KernelIdeal.τ).loc Cert.KernelIdeal.main_arg2) : Cert.KernelIdeal.S256x256.Idx → EReal) (ix2 d e) = ((wqR c d e : ℝ) : EReal) :=
      fun c d e => coe_toReal_of_real ((hreal c).2.2.1 (ix2 d e))
    have h3 : ∀ c d e, (m ((c.tc : Thread Cert.KernelIdeal.nD Cert.KernelIdeal.τ).loc Cert.KernelIdeal.main_arg3) : Cert.KernelIdeal.S256x256.Idx → EReal) (ix2 d e) = ((wkR c d e : ℝ) : EReal) :=
      fun c d e => coe_toReal_of_real ((hreal c).2.2.2 (ix2 d e))
    refine ⟨fun c => (fun i : Cert.KernelIdeal.S8192x256.Idx => ((outR (imgR c) (textR c) (wqR c) (wkR c) (imgR c) (i 0) (i 1) : ℝ) : EReal)),
      fun c => (fun i : Cert.KernelIdeal.S8192x256.Idx => ((outR (imgR c) (textR c) (wqR c) (wkR c) (textR c) (i 0) (i 1) : ℝ) : EReal)), ?_, ?_⟩
    · -- the kernel: its run with the results named, then the results from the launch memory
      refine (θ_run Cert.KernelIdeal.defs _ _).mono (fun r h c => ?_) (Cert.KernelIdeal.RunValue.run (F := Ideal) m ρ)
      obtain ⟨e0, e1, a0, a1, a2, a3⟩ := h c
      exact ⟨e0.trans (Cert.KernelIdeal.KernelValue.result_img m ρ c (imgR c) (textR c) (wqR c) (wkR c) (h0 c) (h1 c) (h2 c) (h3 c)),
        e1.trans (Cert.KernelIdeal.KernelValue.result_text m ρ c (imgR c) (textR c) (wqR c) (wkR c) (h0 c) (h1 c) (h2 c) (h3 c)), a0, a1, a2, a3⟩
    · -- the reference: its run read as the all-at-once form, on arguments that agree with the kernel's
      refine (θ_run Cert.ReferenceIdeal.defs _ _).mono (fun r h c => ?_) (Cert.ReferenceIdeal.Value.run (F := Ideal) m' ρ')
      obtain ⟨e0, e1, a0, a1, a2, a3⟩ := h c
      obtain ⟨g0, g1, g2, g3⟩ := hagree c
      refine ⟨?_, ?_, a0, a1, a2, a3⟩
      · rw [e0, Cert.ReferenceIdeal.Read.val_main_v21_eq, Cert.ReferenceIdeal.RefValue.ref_img, g0, g1, g2, g3]
        funext i
        obtain ⟨r', e', rfl⟩ : ∃ (r' : Fin 8192) (e' : Fin 256), i = ix2 r' e' := ⟨i 0, i 1, eq_ix2 i⟩
        exact ref_closed _ _ _ _ (imgR c) (textR c) (wqR c) (wkR c) (h0 c) (h1 c) (h2 c) (h3 c) _ (imgR c) (h0 c) r' e'
      · rw [e1, Cert.ReferenceIdeal.Read.val_main_v22_eq, Cert.ReferenceIdeal.RefValue.ref_text, g0, g1, g2, g3]
        funext i
        obtain ⟨r', e', rfl⟩ : ∃ (r' : Fin 8192) (e' : Fin 256), i = ix2 r' e' := ⟨i 0, i 1, eq_ix2 i⟩
        exact ref_closed _ _ _ _ (imgR c) (textR c) (wqR c) (wkR c) (h0 c) (h1 c) (h2 c) (h3 c) _ (textR c) (h1 c) r' e'⟩

end Cert.Proof

end
